-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x32 : Shape := ⟨2, ![200000, 32]⟩
abbrev S1600000 : Shape := ⟨1, ![1600000]⟩
abbrev S32x24 : Shape := ⟨2, ![32, 24]⟩
abbrev S24 : Shape := ⟨1, ![24]⟩
abbrev S24x24 : Shape := ⟨2, ![24, 24]⟩
abbrev S96x1 : Shape := ⟨2, ![96, 1]⟩
abbrev S1 : Shape := ⟨1, ![1]⟩
abbrev S_ : Shape := ⟨0, ![]⟩

class Facts : Prop where
  bcast_S_S200000x32 : S_.BroadcastsInDim S200000x32 (![] : Fin 0 → Fin S200000x32.rank)
  reducesTo_S200000x32_S_d0_1 : S200000x32.ReducesTo [0, 1] S_
  h_S_ : 0 < S_.numel
  bcast_S_S32x24 : S_.BroadcastsInDim S32x24 (![] : Fin 0 → Fin S32x24.rank)
  reducesTo_S32x24_S_d0_1 : S32x24.ReducesTo [0, 1] S_
  bcast_S_S24 : S_.BroadcastsInDim S24 (![] : Fin 0 → Fin S24.rank)
  reducesTo_S24_S_d0 : S24.ReducesTo [0] S_
  bcast_S_S24x24 : S_.BroadcastsInDim S24x24 (![] : Fin 0 → Fin S24x24.rank)
  reducesTo_S24x24_S_d0_1 : S24x24.ReducesTo [0, 1] S_
  bcast_S_S96x1 : S_.BroadcastsInDim S96x1 (![] : Fin 0 → Fin S96x1.rank)
  reducesTo_S96x1_S_d0_1 : S96x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S24 .f32) (main_arg7 : FVec F S96x1 .f32) (main_arg8 : FVec F S1 .f32) (main_v13 : IVec S_ 1) (main_v16 : IVec S24x24 1) : IVec S_ 1 :=
  let main_c_5 : IVec S_ 1 := constantI S_ 1 1#1
  let main_v17 : IVec S_ 1 := (fun x v => Host.reduce IntOp.andi x v reducesTo_S24x24_S_d0_1 h_S_) main_v16 main_c_5
  let main_v18 : IVec S_ 1 := andi main_v13 main_v17
  let main_v19 : FVec F S24 .f32 := Host.absf main_arg6
  let main_cst_6 : FVec F S_ .f32 := constant S_ .f32 0x7F800000#32
  let main_v20 : FVec F S24 .f32 := broadcastInDim S24 ![] bcast_S_S24 main_cst_6
  let main_v21 : IVec S24 1 := cmpf .olt main_v19 main_v20
  let main_c_7 : IVec S_ 1 := constantI S_ 1 1#1
  let main_v22 : IVec S_ 1 := (fun x v => Host.reduce IntOp.andi x v reducesTo_S24_S_d0 h_S_) main_v21 main_c_7
  let main_v23 : IVec S_ 1 := andi main_v18 main_v22
  let main_v24 : FVec F S96x1 .f32 := Host.absf main_arg7
  let main_cst_8 : FVec F S_ .f32 := constant S_ .f32 0x7F800000#32
  let main_v25 : FVec F S96x1 .f32 := broadcastInDim S96x1 ![] bcast_S_S96x1 main_cst_8
  let main_v26 : IVec S96x1 1 := cmpf .olt main_v24 main_v25
  let main_c_9 : IVec S_ 1 := constantI S_ 1 1#1
  let main_v27 : IVec S_ 1 := (fun x v => Host.reduce IntOp.andi x v reducesTo_S96x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S200000x32 .f32) (main_arg1 : IVec S1600000 32) (main_arg2 : IVec S1600000 32) (main_arg3 : FVec F S32x24 .f32) (main_arg4 : FVec F S24 .f32) (main_arg5 : FVec F S24x24 .f32) (main_arg6 : FVec F S24 .f32) (main_arg7 : FVec F S96x1 .f32) (main_arg8 : FVec F S1 .f32) : IVec S_ 1 :=
  let main_v0 : FVec F S200000x32 .f32 := Host.absf main_arg0
  let main_cst : FVec F S_ .f32 := constant S_ .f32 0x7F800000#32
  let main_v1 : FVec F S200000x32 .f32 := broadcastInDim S200000x32 ![] bcast_S_S200000x32 main_cst
  let main_v2 : IVec S200000x32 1 := cmpf .olt main_v0 main_v1
  let main_c : IVec S_ 1 := constantI S_ 1 1#1
  let main_v3 : IVec S_ 1 := (fun x v => Host.reduce IntOp.andi x v reducesTo_S200000x32_S_d0_1 h_S_) main_v2 main_c
  let main_v4 : FVec F S32x24 .f32 := Host.absf main_arg3
  let main_cst_0 : FVec F S_ .f32 := constant S_ .f32 0x7F800000#32
  let main_v5 : FVec F S32x24 .f32 := broadcastInDim S32x24 ![] bcast_S_S32x24 main_cst_0
  let main_v6 : IVec S32x24 1 := cmpf .olt main_v4 main_v5
  let main_c_1 : IVec S_ 1 := constantI S_ 1 1#1
  let main_v7 : IVec S_ 1 := (fun x v => Host.reduce IntOp.andi x v reducesTo_S32x24_S_d0_1 h_S_) main_v6 main_c_1
  let main_v8 : IVec S_ 1 := andi main_v3 main_v7
  let main_v9 : FVec F S24 .f32 := Host.absf main_arg4
  let main_cst_2 : FVec F S_ .f32 := constant S_ .f32 0x7F800000#32
  let main_v10 : FVec F S24 .f32 := broadcastInDim S24 ![] bcast_S_S24 main_cst_2
  let main_v11 : IVec S24 1 := cmpf .olt main_v9 main_v10
  let main_c_3 : IVec S_ 1 := constantI S_ 1 1#1
  let main_v12 : IVec S_ 1 := (fun x v => Host.reduce IntOp.andi x v reducesTo_S24_S_d0 h_S_) main_v11 main_c_3
  let main_v13 : IVec S_ 1 := andi main_v8 main_v12
  let main_v14 : FVec F S24x24 .f32 := Host.absf main_arg5
  let main_cst_4 : FVec F S_ .f32 := constant S_ .f32 0x7F800000#32
  let main_v15 : FVec F S24x24 .f32 := broadcastInDim S24x24 ![] bcast_S_S24x24 main_cst_4
  let main_v16 : IVec S24x24 1 := cmpf .olt main_v14 main_v15
  fn_part1 (F := F) main_arg6 main_arg7 main_arg8 main_v13 main_v16
-- ==== Kernel.lean ====
abbrev S200000x32 : Shape := ⟨2, ![200000, 32]⟩
abbrev S1600000 : Shape := ⟨1, ![1600000]⟩
abbrev S32x24 : Shape := ⟨2, ![32, 24]⟩
abbrev S24 : Shape := ⟨1, ![24]⟩
abbrev S24x24 : Shape := ⟨2, ![24, 24]⟩
abbrev S96x1 : Shape := ⟨2, ![96, 1]⟩
abbrev S1 : Shape := ⟨1, ![1]⟩
abbrev S_ : Shape := ⟨0, ![]⟩
abbrev S200000 : Shape := ⟨1, ![200000]⟩
abbrev S1600000x1 : Shape := ⟨2, ![1600000, 1]⟩
abbrev S200000x1 : Shape := ⟨2, ![200000, 1]⟩
abbrev S200000x24 : Shape := ⟨2, ![200000, 24]⟩
abbrev S8000x32 : Shape := ⟨2, ![8000, 32]⟩
abbrev S8000x1 : Shape := ⟨2, ![8000, 1]⟩
abbrev S8000x24 : Shape := ⟨2, ![8000, 24]⟩
abbrev S1600000x24 : Shape := ⟨2, ![1600000, 24]⟩
abbrev S1x24 : Shape := ⟨2, ![1, 24]⟩
abbrev S50000x96 : Shape := ⟨2, ![50000, 96]⟩
abbrev S1x1 : Shape := ⟨2, ![1, 1]⟩
abbrev S50000x1 : Shape := ⟨2, ![50000, 1]⟩
abbrev S10000x96 : Shape := ⟨2, ![10000, 96]⟩
abbrev S10000x1 : Shape := ⟨2, ![10000, 1]⟩

abbrev nBuf : Space → Nat
  | .hbm => 64
  | .vmem => 34
  | .smem => 0
  | _ => 0

abbrev bufTy : (tb : Table) → Fin (tcTables nBuf tb) → BufTy
  | .hbm, ⟨0, _⟩ => ⟨S200000x32, .f32⟩
  | .hbm, ⟨1, _⟩ => ⟨S1600000, .i32⟩
  | .hbm, ⟨2, _⟩ => ⟨S1600000, .i32⟩
  | .hbm, ⟨3, _⟩ => ⟨S32x24, .f32⟩
  | .hbm, ⟨4, _⟩ => ⟨S24, .f32⟩
  | .hbm, ⟨5, _⟩ => ⟨S24x24, .f32⟩
  | .hbm, ⟨6, _⟩ => ⟨S24, .f32⟩
  | .hbm, ⟨7, _⟩ => ⟨S96x1, .f32⟩
  | .hbm, ⟨8, _⟩ => ⟨S1, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S200000, .f32⟩
  | .hbm, ⟨13, _⟩ => ⟨S1600000x1, .i32⟩
  | .hbm, ⟨14, _⟩ => ⟨S200000, .f32⟩
  | .hbm, ⟨15, _⟩ => ⟨S_, .f32⟩
  | .hbm, ⟨16, _⟩ => ⟨S200000, .f32⟩
  | .hbm, ⟨17, _⟩ => ⟨S1600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .f32⟩
  | .hbm, ⟨22, _⟩ => ⟨S200000, .f32⟩
  | .hbm, ⟨23, _⟩ => ⟨S200000x1, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S200000, .f32⟩
  | .hbm, ⟨28, _⟩ => ⟨S200000x1, .f32⟩
  | .hbm, ⟨29, _⟩ => ⟨S200000x24, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x24, .f32⟩
  | .hbm, ⟨39, _⟩ => ⟨S_, .f32⟩
  | .hbm, ⟨40, _⟩ => ⟨S200000x24, .f32⟩
  | .hbm, ⟨41, _⟩ => ⟨S1600000x1, .i32⟩
  | .hbm, ⟨42, _⟩ => ⟨S200000x24, .f32⟩
  | .hbm, ⟨43, _⟩ => ⟨S1x24, .f32⟩
  | .hbm, ⟨44, _⟩ => ⟨S200000x24, .f32⟩
  | .hbm, ⟨45, _⟩ => ⟨S200000x24, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x24, .f32⟩
  | .hbm, ⟨55, _⟩ => ⟨S_, .f32⟩
  | .hbm, ⟨56, _⟩ => ⟨S200000x24, .f32⟩
  | .hbm, ⟨57, _⟩ => ⟨S1600000x1, .i32⟩
  | .hbm, ⟨58, _⟩ => ⟨S200000x24, .f32⟩
  | .hbm, ⟨59, _⟩ => ⟨S1x24, .f32⟩
  | .hbm, ⟨60, _⟩ => ⟨S200000x24, .f32⟩
  | .hbm, ⟨61, _⟩ => ⟨S50000x96, .f32⟩
  | .hbm, ⟨62, _⟩ => ⟨S1x1, .f32⟩
  | .hbm, ⟨63, _⟩ => ⟨S50000x1, .f32⟩
  | .local _ .vmem, ⟨0, _⟩ => ⟨S8000x32, .f32⟩
  | .local _ .vmem, ⟨1, _⟩ => ⟨S8000x32, .f32⟩
  | .local _ .vmem, ⟨2, _⟩ => ⟨S8000x1, .f32⟩
  | .local _ .vmem, ⟨3, _⟩ => ⟨S8000x1, .f32⟩
  | .local _ .vmem, ⟨4, _⟩ => ⟨S32x24, .f32⟩
  | .local _ .vmem, ⟨5, _⟩ => ⟨S8000x24, .f32⟩
  | .local _ .vmem, ⟨6, _⟩ => ⟨S8000x24, .f32⟩
  | .local _ .vmem, ⟨7, _⟩ => ⟨S8000x24, .f32⟩
  | .local _ .vmem, ⟨8, _⟩ => ⟨S8000x24, .f32⟩
  | .local _ .vmem, ⟨9, _⟩ => ⟨S8000x1, .f32⟩
  | .local _ .vmem, ⟨10, _⟩ => ⟨S8000x1, .f32⟩
  | .local _ .vmem, ⟨11, _⟩ => ⟨S1x24, .f32⟩
  | .local _ .vmem, ⟨12, _⟩ => ⟨S8000x24, .f32⟩
  | .local _ .vmem, ⟨13, _⟩ => ⟨S8000x24, .f32⟩
  | .local _ .vmem, ⟨14, _⟩ => ⟨S8000x24, .f32⟩
  | .local _ .vmem, ⟨15, _⟩ => ⟨S8000x24, .f32⟩
  | .local _ .vmem, ⟨16, _⟩ => ⟨S8000x1, .f32⟩
  | .local _ .vmem, ⟨17, _⟩ => ⟨S8000x1, .f32⟩
  | .local _ .vmem, ⟨18, _⟩ => ⟨S24x24, .f32⟩
  | .local _ .vmem, ⟨19, _⟩ => ⟨S8000x24, .f32⟩
  | .local _ .vmem, ⟨20, _⟩ => ⟨S8000x24, .f32⟩
  | .local _ .vmem, ⟨21, _⟩ => ⟨S8000x24, .f32⟩
  | .local _ .vmem, ⟨22, _⟩ => ⟨S8000x24, .f32⟩
  | .local _ .vmem, ⟨23, _⟩ => ⟨S8000x1, .f32⟩
  | .local _ .vmem, ⟨24, _⟩ => ⟨S8000x1, .f32⟩
  | .local _ .vmem, ⟨25, _⟩ => ⟨S1x24, .f32⟩
  | .local _ .vmem, ⟨26, _⟩ => ⟨S8000x24, .f32⟩
  | .local _ .vmem, ⟨27, _⟩ => ⟨S8000x24, .f32⟩
  | .local _ .vmem, ⟨28, _⟩ => ⟨S10000x96, .f32⟩
  | .local _ .vmem, ⟨29, _⟩ => ⟨S10000x96, .f32⟩
  | .local _ .vmem, ⟨30, _⟩ => ⟨S96x1, .f32⟩
  | .local _ .vmem, ⟨31, _⟩ => ⟨S1x1, .f32⟩
  | .local _ .vmem, ⟨32, _⟩ => ⟨S10000x1, .f32⟩
  | .local _ .vmem, ⟨33, _⟩ => ⟨S10000x1, .f32⟩
  | _, _ => ⟨S200000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x24 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x24 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x24 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x24 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S24x24 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x24 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x24 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x24 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8000x24 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S96x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S1600000 : S_.BroadcastsInDim S1600000 (![] : Fin 0 → Fin S1600000.rank)
  bcast_S_S200000 : S_.BroadcastsInDim S200000 (![] : Fin 0 → Fin S200000.rank)
  bcast_S1600000_S1600000x1_0 : S1600000.BroadcastsInDim S1600000x1 (![0] : Fin 1 → Fin S1600000x1.rank)
  shapeCasts_S200000_S200000x1 : S200000.ShapeCasts S200000x1
  inb_S8000x32_S8000x32_0_0 : ∀ a, (![0, 0] : Fin 2 → Nat) a + S8000x32.size a ≤ S8000x32.size a
  h_S8000x32 : 0 < S8000x32.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x32 : S8000x1.Broadcasts S8000x32
  bitsLt_bf16_f32 : FTy.bits .bf16 < FTy.bits .f32
  inb_S32x24_S32x24_0_0 : ∀ a, (![0, 0] : Fin 2 → Nat) a + S32x24.size a ≤ S32x24.size a
  h_S32x24 : 0 < S32x24.numel
  inb_S8000x24_S8000x24_0_0 : ∀ a, (![0, 0] : Fin 2 → Nat) a + S8000x24.size a ≤ S8000x24.size a
  h_S8000x24 : 0 < S8000x24.numel
  bcast_S_S200000x24 : S_.BroadcastsInDim S200000x24 (![] : Fin 0 → Fin S200000x24.rank)
  shapeCasts_S24_S1x24 : S24.ShapeCasts S1x24
  shapeCasts_S8000x24_S8000x24 : S8000x24.ShapeCasts S8000x24
  broadcasts_S8000x1_S8000x24 : S8000x1.Broadcasts S8000x24
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S8000x24 : S1x24.Broadcasts S8000x24
  inb_S24x24_S24x24_0_0 : ∀ a, (![0, 0] : Fin 2 → Nat) a + S24x24.size a ≤ S24x24.size a
  h_S24x24 : 0 < S24x24.numel
  shapeCasts_S200000x24_S50000x96 : S200000x24.ShapeCasts S50000x96
  shapeCasts_S1_S1x1 : S1.ShapeCasts S1x1
  inb_S10000x96_S10000x96_0_0 : ∀ a, (![0, 0] : Fin 2 → Nat) a + S10000x96.size a ≤ S10000x96.size a
  h_S10000x96 : 0 < S10000x96.numel
  shapeCasts_S10000x96_S10000x96 : S10000x96.ShapeCasts S10000x96
  inb_S96x1_S96x1_0_0 : ∀ a, (![0, 0] : Fin 2 → Nat) a + S96x1.size a ≤ S96x1.size a
  h_S96x1 : 0 < S96x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S200000_S1600000x1_S1600000_n_0_0_1_wf : ScatterDims.WF S200000 S1600000x1 S1600000 [] [0] [0] 1
  dot_S8000x32_S32x24_S8000x24_1_0_0_1_n_n_wf : DotDims.WF S8000x32 S32x24 S8000x24 [1] [0] [0] [1] [] []
  gather_S200000x24_S1600000x1_S1600000x24_1_0_n_n_0_1_124_wf : GatherDims.WF S200000x24 S1600000x1 S1600000x24 [1] [0] [] [0] [] 1 ![1, 24]
  scatter_S200000x24_S1600000x1_S1600000x24_1_0_0_1_wf : ScatterDims.WF S200000x24 S1600000x1 S1600000x24 [1] [0] [0] 1
  dot_S8000x24_S24x24_S8000x24_1_0_0_1_n_n_wf : DotDims.WF S8000x24 S24x24 S8000x24 [1] [0] [0] [1] [] []
  dot_S10000x96_S96x1_S10000x1_1_0_0_1_n_n_wf : DotDims.WF S10000x96 S96x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S200000x32.size a
  hwx0_0 : ∀ i : grid0.Coords, EltTy.bits .f32 = 32 ∨ (Rect.block (s := S200000x32) S8000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S200000x1.size a
  hwx0_1 : ∀ i : grid0.Coords, EltTy.bits .f32 = 32 ∨ (Rect.block (s := S200000x1) S8000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x24.size a ≤ S32x24.size a
  hwx0_2 : ∀ i : grid0.Coords, EltTy.bits .f32 = 32 ∨ (Rect.block (s := S32x24) S32x24.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x24.size a ≤ S200000x24.size a
  hwx0_3 : ∀ i : grid0.Coords, EltTy.bits .f32 = 32 ∨ (Rect.block (s := S200000x24) S8000x24.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x24.size a ≤ S200000x24.size a
  hwx1_0 : ∀ i : grid1.Coords, EltTy.bits .f32 = 32 ∨ (Rect.block (s := S200000x24) S8000x24.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S200000x1.size a
  hwx1_1 : ∀ i : grid1.Coords, EltTy.bits .f32 = 32 ∨ (Rect.block (s := S200000x1) S8000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x24.size a ≤ S1x24.size a
  hwx1_2 : ∀ i : grid1.Coords, EltTy.bits .f32 = 32 ∨ (Rect.block (s := S1x24) S1x24.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x24.size a ≤ S200000x24.size a
  hwx1_3 : ∀ i : grid1.Coords, EltTy.bits .f32 = 32 ∨ (Rect.block (s := S200000x24) S8000x24.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x24.size a ≤ S200000x24.size a
  hwx2_0 : ∀ i : grid2.Coords, EltTy.bits .f32 = 32 ∨ (Rect.block (s := S200000x24) S8000x24.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S200000x1.size a
  hwx2_1 : ∀ i : grid2.Coords, EltTy.bits .f32 = 32 ∨ (Rect.block (s := S200000x1) S8000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S24x24.size a ≤ S24x24.size a
  hwx2_2 : ∀ i : grid2.Coords, EltTy.bits .f32 = 32 ∨ (Rect.block (s := S24x24) S24x24.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x24.size a ≤ S200000x24.size a
  hwx2_3 : ∀ i : grid2.Coords, EltTy.bits .f32 = 32 ∨ (Rect.block (s := S200000x24) S8000x24.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x24.size a ≤ S200000x24.size a
  hwx3_0 : ∀ i : grid3.Coords, EltTy.bits .f32 = 32 ∨ (Rect.block (s := S200000x24) S8000x24.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S200000x1.size a
  hwx3_1 : ∀ i : grid3.Coords, EltTy.bits .f32 = 32 ∨ (Rect.block (s := S200000x1) S8000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x24.size a ≤ S1x24.size a
  hwx3_2 : ∀ i : grid3.Coords, EltTy.bits .f32 = 32 ∨ (Rect.block (s := S1x24) S1x24.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8000x24.size a ≤ S200000x24.size a
  hwx3_3 : ∀ i : grid3.Coords, EltTy.bits .f32 = 32 ∨ (Rect.block (s := S200000x24) S8000x24.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x96.size a ≤ S50000x96.size a
  hwx4_0 : ∀ i : grid4.Coords, EltTy.bits .f32 = 32 ∨ (Rect.block (s := S50000x96) S10000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S96x1.size a ≤ S96x1.size a
  hwx4_1 : ∀ i : grid4.Coords, EltTy.bits .f32 = 32 ∨ (Rect.block (s := S96x1) S96x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x1.size a ≤ S50000x1.size a
  hwx4_3 : ∀ i : grid4.Coords, EltTy.bits .f32 = 32 ∨ (Rect.block (s := S50000x1) S10000x1.size (cc4_transform_3 i) (hinb4_3 i)).WholeWords (EltTy.packing .f32)

variable [Facts₀]

def scatter_S200000_S1600000x1_S1600000_n_0_0_1 : ScatterDims S200000 S1600000x1 S1600000 where
  updateWindowDims := []
  insertedWindowDims := [0]
  scatterDimsToOperandDims := [0]
  indexVectorDim := 1
  wf := scatter_S200000_S1600000x1_S1600000_n_0_0_1_wf
def dot_S8000x32_S32x24_S8000x24_1_0_0_1_n_n : DotDims S8000x32 S32x24 S8000x24 where
  lhsContracting := [1]
  rhsContracting := [0]
  lhsNonContracting := [0]
  rhsNonContracting := [1]
  lhsBatch := []
  rhsBatch := []
  wf := dot_S8000x32_S32x24_S8000x24_1_0_0_1_n_n_wf
def gather_S200000x24_S1600000x1_S1600000x24_1_0_n_n_0_1_124 : GatherDims S200000x24 S1600000x1 S1600000x24 where
  offsetDims := [1]
  collapsedSliceDims := [0]
  operandBatchingDims := []
  startIndicesBatchingDims := []
  startIndexMap := [0]
  indexVectorDim := 1
  sliceSizes := ![1, 24]
  wf := gather_S200000x24_S1600000x1_S1600000x24_1_0_n_n_0_1_124_wf
def scatter_S200000x24_S1600000x1_S1600000x24_1_0_0_1 : ScatterDims S200000x24 S1600000x1 S1600000x24 where
  updateWindowDims := [1]
  insertedWindowDims := [0]
  scatterDimsToOperandDims := [0]
  indexVectorDim := 1
  wf := scatter_S200000x24_S1600000x1_S1600000x24_1_0_0_1_wf
def dot_S8000x24_S24x24_S8000x24_1_0_0_1_n_n : DotDims S8000x24 S24x24 S8000x24 where
  lhsContracting := [1]
  rhsContracting := [0]
  lhsNonContracting := [0]
  rhsNonContracting := [1]
  lhsBatch := []
  rhsBatch := []
  wf := dot_S8000x24_S24x24_S8000x24_1_0_0_1_n_n_wf
def dot_S10000x96_S96x1_S10000x1_1_0_0_1_n_n : DotDims S10000x96 S96x1 S10000x1 where
  lhsContracting := [1]
  rhsContracting := [0]
  lhsNonContracting := [0]
  rhsNonContracting := [1]
  lhsBatch := []
  rhsBatch := []
  wf := dot_S10000x96_S96x1_S10000x1_1_0_0_1_n_n_wf

abbrev win0_0 : Pipeline.Window sig grid0 :=
  Pipeline.Window.ofSpec (Memref.whole main_arg0) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S8000x24.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S8000x24.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x24.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S8000x24.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S8000x24.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S24x24.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S8000x24.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S8000x24.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x24.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S8000x24.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v41) S10000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S96x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v42) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v43) S10000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S200000x32 : Shape := ⟨2, ![200000, 32]⟩
abbrev S1600000 : Shape := ⟨1, ![1600000]⟩
abbrev S32x24 : Shape := ⟨2, ![32, 24]⟩
abbrev S24 : Shape := ⟨1, ![24]⟩
abbrev S24x24 : Shape := ⟨2, ![24, 24]⟩
abbrev S96x1 : Shape := ⟨2, ![96, 1]⟩
abbrev S1 : Shape := ⟨1, ![1]⟩
abbrev S_ : Shape := ⟨0, ![]⟩
abbrev S200000 : Shape := ⟨1, ![200000]⟩
abbrev S1600000x1 : Shape := ⟨2, ![1600000, 1]⟩
abbrev S200000x1 : Shape := ⟨2, ![200000, 1]⟩
abbrev S200000x24 : Shape := ⟨2, ![200000, 24]⟩
abbrev S1600000x24 : Shape := ⟨2, ![1600000, 24]⟩
abbrev S1x24 : Shape := ⟨2, ![1, 24]⟩
abbrev S50000x96 : Shape := ⟨2, ![50000, 96]⟩
abbrev S50000x1 : Shape := ⟨2, ![50000, 1]⟩
abbrev S1x1 : Shape := ⟨2, ![1, 1]⟩

abbrev nBuf : Space → Nat
  | .hbm => 102
  | .vmem => 0
  | .smem => 0
  | _ => 0

abbrev bufTy : (tb : Table) → Fin (tcTables nBuf tb) → BufTy
  | .hbm, ⟨0, _⟩ => ⟨S200000x32, .f32⟩
  | .hbm, ⟨1, _⟩ => ⟨S1600000, .i32⟩
  | .hbm, ⟨2, _⟩ => ⟨S1600000, .i32⟩
  | .hbm, ⟨3, _⟩ => ⟨S32x24, .f32⟩
  | .hbm, ⟨4, _⟩ => ⟨S24, .f32⟩
  | .hbm, ⟨5, _⟩ => ⟨S24x24, .f32⟩
  | .hbm, ⟨6, _⟩ => ⟨S24, .f32⟩
  | .hbm, ⟨7, _⟩ => ⟨S96x1, .f32⟩
  | .hbm, ⟨8, _⟩ => ⟨S1, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S200000, .f32⟩
  | .hbm, ⟨13, _⟩ => ⟨S1600000x1, .i32⟩
  | .hbm, ⟨14, _⟩ => ⟨S200000, .f32⟩
  | .hbm, ⟨15, _⟩ => ⟨S_, .f32⟩
  | .hbm, ⟨16, _⟩ => ⟨S200000, .f32⟩
  | .hbm, ⟨17, _⟩ => ⟨S1600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .f32⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .f32⟩
  | .hbm, ⟨26, _⟩ => ⟨S200000, .f32⟩
  | .hbm, ⟨27, _⟩ => ⟨S200000x1, .f32⟩
  | .hbm, ⟨28, _⟩ => ⟨S200000x32, .f32⟩
  | .hbm, ⟨29, _⟩ => ⟨S200000x32, .f32⟩
  | .hbm, ⟨30, _⟩ => ⟨S200000x24, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x24, .f32⟩
  | .hbm, ⟨40, _⟩ => ⟨S_, .f32⟩
  | .hbm, ⟨41, _⟩ => ⟨S200000x24, .f32⟩
  | .hbm, ⟨42, _⟩ => ⟨S1600000x1, .i32⟩
  | .hbm, ⟨43, _⟩ => ⟨S200000x24, .f32⟩
  | .hbm, ⟨44, _⟩ => ⟨S200000x1, .f32⟩
  | .hbm, ⟨45, _⟩ => ⟨S200000x24, .f32⟩
  | .hbm, ⟨46, _⟩ => ⟨S200000x24, .f32⟩
  | .hbm, ⟨47, _⟩ => ⟨S1x24, .f32⟩
  | .hbm, ⟨48, _⟩ => ⟨S200000x24, .f32⟩
  | .hbm, ⟨49, _⟩ => ⟨S200000x24, .f32⟩
  | .hbm, ⟨50, _⟩ => ⟨S_, .f32⟩
  | .hbm, ⟨51, _⟩ => ⟨S200000x24, .f32⟩
  | .hbm, ⟨52, _⟩ => ⟨S200000x24, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S200000, .f32⟩
  | .hbm, ⟨57, _⟩ => ⟨S1600000x1, .i32⟩
  | .hbm, ⟨58, _⟩ => ⟨S200000, .f32⟩
  | .hbm, ⟨59, _⟩ => ⟨S_, .f32⟩
  | .hbm, ⟨60, _⟩ => ⟨S200000, .f32⟩
  | .hbm, ⟨61, _⟩ => ⟨S1600000x1, .i32⟩
  | .hbm, ⟨62, _⟩ => ⟨S200000, .f32⟩
  | .hbm, ⟨63, _⟩ => ⟨S_, .f32⟩
  | .hbm, ⟨64, _⟩ => ⟨S200000, .f32⟩
  | .hbm, ⟨65, _⟩ => ⟨S200000, .f32⟩
  | .hbm, ⟨66, _⟩ => ⟨S200000, .f32⟩
  | .hbm, ⟨67, _⟩ => ⟨S_, .f32⟩
  | .hbm, ⟨68, _⟩ => ⟨S200000, .f32⟩
  | .hbm, ⟨69, _⟩ => ⟨S200000, .f32⟩
  | .hbm, ⟨70, _⟩ => ⟨S200000, .f32⟩
  | .hbm, ⟨71, _⟩ => ⟨S200000x1, .f32⟩
  | .hbm, ⟨72, _⟩ => ⟨S200000x24, .f32⟩
  | .hbm, ⟨73, _⟩ => ⟨S200000x24, .f32⟩
  | .hbm, ⟨74, _⟩ => ⟨S200000x24, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x24, .f32⟩
  | .hbm, ⟨84, _⟩ => ⟨S_, .f32⟩
  | .hbm, ⟨85, _⟩ => ⟨S200000x24, .f32⟩
  | .hbm, ⟨86, _⟩ => ⟨S1600000x1, .i32⟩
  | .hbm, ⟨87, _⟩ => ⟨S200000x24, .f32⟩
  | .hbm, ⟨88, _⟩ => ⟨S200000x1, .f32⟩
  | .hbm, ⟨89, _⟩ => ⟨S200000x24, .f32⟩
  | .hbm, ⟨90, _⟩ => ⟨S200000x24, .f32⟩
  | .hbm, ⟨91, _⟩ => ⟨S1x24, .f32⟩
  | .hbm, ⟨92, _⟩ => ⟨S200000x24, .f32⟩
  | .hbm, ⟨93, _⟩ => ⟨S200000x24, .f32⟩
  | .hbm, ⟨94, _⟩ => ⟨S_, .f32⟩
  | .hbm, ⟨95, _⟩ => ⟨S200000x24, .f32⟩
  | .hbm, ⟨96, _⟩ => ⟨S200000x24, .f32⟩
  | .hbm, ⟨97, _⟩ => ⟨S50000x96, .f32⟩
  | .hbm, ⟨98, _⟩ => ⟨S50000x1, .f32⟩
  | .hbm, ⟨99, _⟩ => ⟨S1x1, .f32⟩
  | .hbm, ⟨100, _⟩ => ⟨S50000x1, .f32⟩
  | .hbm, ⟨101, _⟩ => ⟨S50000x1, .f32⟩
  | _, _ => ⟨S200000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call1_cst : Ref sig .tc := ⟨.hbm, 94, rfl⟩
abbrev main_call1_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S200000 : S_.BroadcastsInDim S200000 (![] : Fin 0 → Fin S200000.rank)
  bcast_S1600000_S1600000x1_0 : S1600000.BroadcastsInDim S1600000x1 (![0] : Fin 1 → Fin S1600000x1.rank)
  bcast_S200000_S200000x1_0 : S200000.BroadcastsInDim S200000x1 (![0] : Fin 1 → Fin S200000x1.rank)
  bcast_S200000x1_S200000x32_0_1 : S200000x1.BroadcastsInDim S200000x32 (![0, 1] : Fin 2 → Fin S200000x32.rank)
  bcast_S_S200000x24 : S_.BroadcastsInDim S200000x24 (![] : Fin 0 → Fin S200000x24.rank)
  bcast_S200000x1_S200000x24_0_1 : S200000x1.BroadcastsInDim S200000x24 (![0, 1] : Fin 2 → Fin S200000x24.rank)
  bcast_S24_S1x24_1 : S24.BroadcastsInDim S1x24 (![1] : Fin 1 → Fin S1x24.rank)
  bcast_S1x24_S200000x24_0_1 : S1x24.BroadcastsInDim S200000x24 (![0, 1] : Fin 2 → Fin S200000x24.rank)
  shapeCasts_S200000x24_S50000x96 : S200000x24.ShapeCasts S50000x96
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S200000_S1600000x1_S1600000_n_0_0_1_wf : ScatterDims.WF S200000 S1600000x1 S1600000 [] [0] [0] 1
  dot_S200000x32_S32x24_S200000x24_1_0_0_1_n_n_wf : DotDims.WF S200000x32 S32x24 S200000x24 [1] [0] [0] [1] [] []
  gather_S200000x24_S1600000x1_S1600000x24_1_0_n_n_0_1_124_wf : GatherDims.WF S200000x24 S1600000x1 S1600000x24 [1] [0] [] [0] [] 1 ![1, 24]
  scatter_S200000x24_S1600000x1_S1600000x24_1_0_0_1_wf : ScatterDims.WF S200000x24 S1600000x1 S1600000x24 [1] [0] [0] 1
  dot_S200000x24_S24x24_S200000x24_1_0_0_1_n_n_wf : DotDims.WF S200000x24 S24x24 S200000x24 [1] [0] [0] [1] [] []
  dot_S50000x96_S96x1_S50000x1_1_0_0_1_n_n_wf : DotDims.WF S50000x96 S96x1 S50000x1 [1] [0] [0] [1] [] []

variable [Facts₀]

def scatter_S200000_S1600000x1_S1600000_n_0_0_1 : ScatterDims S200000 S1600000x1 S1600000 where
  updateWindowDims := []
  insertedWindowDims := [0]
  scatterDimsToOperandDims := [0]
  indexVectorDim := 1
  wf := scatter_S200000_S1600000x1_S1600000_n_0_0_1_wf
def dot_S200000x32_S32x24_S200000x24_1_0_0_1_n_n : DotDims S200000x32 S32x24 S200000x24 where
  lhsContracting := [1]
  rhsContracting := [0]
  lhsNonContracting := [0]
  rhsNonContracting := [1]
  lhsBatch := []
  rhsBatch := []
  wf := dot_S200000x32_S32x24_S200000x24_1_0_0_1_n_n_wf
def gather_S200000x24_S1600000x1_S1600000x24_1_0_n_n_0_1_124 : GatherDims S200000x24 S1600000x1 S1600000x24 where
  offsetDims := [1]
  collapsedSliceDims := [0]
  operandBatchingDims := []
  startIndicesBatchingDims := []
  startIndexMap := [0]
  indexVectorDim := 1
  sliceSizes := ![1, 24]
  wf := gather_S200000x24_S1600000x1_S1600000x24_1_0_n_n_0_1_124_wf
def scatter_S200000x24_S1600000x1_S1600000x24_1_0_0_1 : ScatterDims S200000x24 S1600000x1 S1600000x24 where
  updateWindowDims := [1]
  insertedWindowDims := [0]
  scatterDimsToOperandDims := [0]
  indexVectorDim := 1
  wf := scatter_S200000x24_S1600000x1_S1600000x24_1_0_0_1_wf
def dot_S200000x24_S24x24_S200000x24_1_0_0_1_n_n : DotDims S200000x24 S24x24 S200000x24 where
  lhsContracting := [1]
  rhsContracting := [0]
  lhsNonContracting := [0]
  rhsNonContracting := [1]
  lhsBatch := []
  rhsBatch := []
  wf := dot_S200000x24_S24x24_S200000x24_1_0_0_1_n_n_wf
def dot_S50000x96_S96x1_S50000x1_1_0_0_1_n_n : DotDims S50000x96 S96x1 S50000x1 where
  lhsContracting := [1]
  rhsContracting := [0]
  lhsNonContracting := [0]
  rhsNonContracting := [1]
  lhsBatch := []
  rhsBatch := []
  wf := dot_S50000x96_S96x1_S50000x1_1_0_0_1_n_n_wf

class Facts : Prop extends Facts₀ where

variable [Facts]
-- ==== Proof.KernelRun.lean ====
/-
  The kernel program's run with its result named.

  The program is five tiled regions among stretches of host operations. Every weakly fair execution terminates without
  a fault, the nine argument arrays end as launched, and the result array ends at what the last region's write-backs
  leave of it: the contents of the result buffer in the last of the buffer valuations W0 … W9 that follow the program
  from its launch memory, one per stretch and one per region.
-/
import proofs.«131091_j25555055411820_2_alg».proof.Proof.Gen.KernelIdeal.Frame

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v43) = W9 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v43 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Layers

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.LibUnitAxes.lean ====
/-
  Three layout operations read at an index given by its coordinates, generic in the extents and the element type.
  • A shape cast that DROPS two leading unit axes, [1, 1, a, b] → [a, b], reads at (p, c) the operand at (0, 0, p, c); the
    cast that ADDS them, [a, b] → [1, 1, a, b], reads at (0, 0, p, c) the operand at (p, c): the row-major position of
    (0, 0, p, c) in [1, 1, a, b] is p·b + c, that of (p, c) in [a, b].
  • A column [a, 1] broadcast along the second axis to [a, b] reads at (p, c) the column's entry p, whatever c.
-/
import Idealize.ShloMosaic.Lib.ValueLayout

namespace Cert.LibUnitAxes

open Idealize.ShloMosaic Idealize.ShloMosaic.ValueIdx

variable {α : Type}

/-- [1, 1, a, b] cast to [a, b], at (p, c): the operand at (0, 0, p, c). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) :=
  shapeCast_apply x h (ix2 p c) (ix4 (0 : Fin 1) (0 : Fin 1) p c) (by
    rw [Shape.rowMajor_val_four, Shape.rowMajor_val_two]
    show (((0 * 1 + 0) * a + p.val) * b + c.val) = p.val * b + c.val
    simp only [Nat.zero_mul, Nat.zero_add])

/-- [a, b] cast to [1, 1, a, b], at (0, 0, p, c): the operand at (p, c). -/
theorem shapeCast_ab_11ab_apply {a b : ℕ} (x : (⟨2, ![a, b]⟩ : Shape).Idx → α)
    (h : (⟨2, ![a, b]⟩ : Shape).ShapeCasts ⟨4, ![1, 1, a, b]⟩) (p : Fin a) (c : Fin b) :
    shapeCast ⟨4, ![1, 1, a, b]⟩ x h (ix4 (0 : Fin 1) (0 : Fin 1) p c) = x (ix2 p c) :=
  shapeCast_apply x h (ix4 (0 : Fin 1) (0 : Fin 1) p c) (ix2 p c) (by
    rw [Shape.rowMajor_val_four, Shape.rowMajor_val_two]
    show p.val * b + c.val = (((0 * 1 + 0) * a + p.val) * b + c.val)
    simp only [Nat.zero_mul, Nat.zero_add])

/-- A column [a, 1] broadcast to [a, b], at (p, c): the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibUnitAxes
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.LibGcnBlocks.lean ====
/-
  Three dense graph-convolution bodies read block by block, at the extended reals.

  A node-tiled kernel sees m consecutive rows of an M-row array at a time: block row a stands for array row `row a`.
  Each lemma says that what the body computes at entry (a, b) of its block is what the corresponding whole-array
  host formula computes at entry (row a, b), given only that the block operands read the arrays at those rows:

  • rows scaled by a per-row factor, then multiplied by a matrix:  Σ_c (X(r,c) · s(r)) · W(c,b);
  • an aggregate scaled per row, a bias row added, clipped below at zero:  max(A(r,b) · s(r) + β(b), 0);
  • a matrix product with a bias row added:  Σ_c X(r,c) · W(c,b) + β(b).

  The per-row factor is a column [M,1] repeated along the columns, the bias a row [1,N] repeated down the rows. A
  change of float format is the identity on extended reals, the kernel's product accumulates into the zero block,
  and the zero the maximum is taken against is the same word on both sides, so nothing of real arithmetic is used:
  every statement holds at the infinities too. Generic in all extents (M must not be the unit extent, so that the
  column's row coordinate is read and not collapsed).
-/
import Idealize.ShloMosaic.Lib.StackMember
import Idealize.ShloMosaic.Lib.KernelVsHost
import Idealize.ShloMosaic.Lib.ValueLayout
import proofs.«131091_j25555055411820_2_alg».proof.Proof.LibRowBlockDot
import proofs.«131091_j25555055411820_2_alg».proof.Proof.LibUnitAxes
import proofs.«131091_j25555055411820_2_alg».proof.Proof.LibHostReads

noncomputable section

namespace Cert.LibGcnBlocks

open Idealize.ShloMosaic Idealize.ShloMosaic.ValueIdx

/-- Rows scaled by a per-row factor and multiplied by a matrix: the block's product into the zero accumulator, at
    (a, b), is the whole scaled product at (row a, b). -/
theorem scaledDot_block {M m K N : Nat} (hM : M ≠ 1) (prec prec' : Option ContractPrecision)
    (X : FVec Ideal ⟨2, ![M, K]⟩ .f32) (S : FVec Ideal ⟨2, ![M, 1]⟩ .f32) (W : FVec Ideal ⟨2, ![K, N]⟩ .f32)
    (x0 : FVec Ideal ⟨2, ![m, K]⟩ .f32) (x1 : FVec Ideal ⟨2, ![m, 1]⟩ .f32) (w : FVec Ideal ⟨2, ![K, N]⟩ .f32)
    (row : Fin m → Fin M)
    (h0 : ∀ a c, x0 (ix2 a c) = X (ix2 (row a) c))
    (h1 : ∀ a, x1 (ix2 a (0 : Fin 1)) = S (ix2 (row a) (0 : Fin 1)))
    (hw : ∀ c b, w (ix2 c b) = W (ix2 c b))
    (hc : (⟨2, ![m, 1]⟩ : Shape).ShapeCasts ⟨2, ![m, 1]⟩) (hb : (⟨2, ![m, 1]⟩ : Shape).Broadcasts ⟨2, ![m, K]⟩)
    (hB : (⟨2, ![M, 1]⟩ : Shape).BroadcastsInDim ⟨2, ![M, K]⟩ ![0, 1])
    (ht : FTy.bf16.bits < FTy.f32.bits)
    (j : (⟨2, ![m, N]⟩ : Shape).Idx) (i : (⟨2, ![M, N]⟩ : Shape).Idx)
    (hi0 : (i 0).val = (row (j 0)).val) (hi1 : (i 1).val = (j 1).val) :
    matmul (DotDims.plain m K N) prec
        (truncf .bf16 (mulf x0 (broadcastTo ⟨2, ![m, K]⟩ (shapeCast ⟨2, ![m, 1]⟩ x1 hc) hb)) ht)
        (truncf .bf16 w ht) (constant (F := Ideal) ⟨2, ![m, N]⟩ .f32 0x00000000#32) j
      = Host.dotGeneral (DotDims.plain M K N) prec' (mulf X (broadcastInDim ⟨2, ![M, K]⟩ ![0, 1] hB S)) W i := by
  refine LibRowBlockDot.matmul_rowBlock_apply_idx prec prec' _ W _ _ row (fun a c => ?_) (fun c b => ?_) j i hi0 hi1
  · rw [truncf_apply, mulf_apply, mulf_apply, h0, shapeCast_self, LibUnitAxes.broadcastTo_a1_ab_apply, h1,
      LibHostReads.colBcast_apply hM]
  · rw [truncf_apply, hw]

/-- An aggregate scaled per row, a bias row added, clipped below at zero: the block's value at (a, b) is the whole
    formula at (row a, b). -/
theorem scaleBiasRelu_block {M m N : Nat} (hM : M ≠ 1)
    (A : FVec Ideal ⟨2, ![M, N]⟩ .f32) (S : FVec Ideal ⟨2, ![M, 1]⟩ .f32) (B : FVec Ideal ⟨2, ![1, N]⟩ .f32)
    (x0 : FVec Ideal ⟨2, ![m, N]⟩ .f32) (x1 : FVec Ideal ⟨2, ![m, 1]⟩ .f32) (x2 : FVec Ideal ⟨2, ![1, N]⟩ .f32)
    (row : Fin m → Fin M)
    (h0 : ∀ a c, x0 (ix2 a c) = A (ix2 (row a) c))
    (h1 : ∀ a, x1 (ix2 a (0 : Fin 1)) = S (ix2 (row a) (0 : Fin 1)))
    (h2 : ∀ c, x2 (ix2 (0 : Fin 1) c) = B (ix2 (0 : Fin 1) c))
    (hc0 : (⟨2, ![m, N]⟩ : Shape).ShapeCasts ⟨2, ![m, N]⟩) (hc1 : (⟨2, ![m, 1]⟩ : Shape).ShapeCasts ⟨2, ![m, 1]⟩)
    (hc2 : (⟨2, ![1, N]⟩ : Shape).ShapeCasts ⟨2, ![1, N]⟩)
    (hb1 : (⟨2, ![m, 1]⟩ : Shape).Broadcasts ⟨2, ![m, N]⟩) (hb2 : (⟨2, ![1, N]⟩ : Shape).Broadcasts ⟨2, ![m, N]⟩)
    (hS : (⟨2, ![M, 1]⟩ : Shape).BroadcastsInDim ⟨2, ![M, N]⟩ ![0, 1])
    (hB : (⟨2, ![1, N]⟩ : Shape).BroadcastsInDim ⟨2, ![M, N]⟩ ![0, 1])
    (hZ : (⟨0, ![]⟩ : Shape).BroadcastsInDim ⟨2, ![M, N]⟩ ![])
    (j : (⟨2, ![m, N]⟩ : Shape).Idx) (i : (⟨2, ![M, N]⟩ : Shape).Idx)
    (hi0 : (i 0).val = (row (j 0)).val) (hi1 : (i 1).val = (j 1).val) :
    maximumf (addf (mulf (shapeCast ⟨2, ![m, N]⟩ x0 hc0) (broadcastTo ⟨2, ![m, N]⟩ (shapeCast ⟨2, ![m, 1]⟩ x1 hc1) hb1))
          (broadcastTo ⟨2, ![m, N]⟩ (shapeCast ⟨2, ![1, N]⟩ x2 hc2) hb2))
        (broadcast ⟨2, ![m, N]⟩ (Scalar.ofBits (F := Ideal) .f32 0x00000000#32)) j
      = maximumf (addf (mulf A (broadcastInDim ⟨2, ![M, N]⟩ ![0, 1] hS S)) (broadcastInDim ⟨2, ![M, N]⟩ ![0, 1] hB B))
          (broadcastInDim ⟨2, ![M, N]⟩ ![] hZ (constant (F := Ideal) ⟨0, ![]⟩ .f32 0x00000000#32)) i := by
  obtain ⟨a, b, rfl⟩ : ∃ (a : Fin m) (b : Fin N), j = ix2 a b := ⟨j 0, j 1, eq_ix2 j⟩
  obtain rfl : i = ix2 (row a) b := by
    rw [eq_ix2 i]
    exact congrArg₂ ix2 (Fin.ext hi0) (Fin.ext hi1)
  rw [maximumf_apply, maximumf_apply, addf_apply, addf_apply, mulf_apply, mulf_apply, shapeCast_self,
    shapeCast_self, shapeCast_self, LibUnitAxes.broadcastTo_a1_ab_apply, broadcastTo_1b_ab_apply, h0, h1, h2,
    LibHostReads.colBcast_apply hM, broadcastInDim_oneRow_apply, LibHostReads.splat_apply, broadcast_apply]
  rfl

/-- A matrix product with a bias row added: the block's value at (a, b) is the whole formula at (row a, b). -/
theorem denseBias_block {M m K N : Nat} (prec prec' : Option ContractPrecision)
    (X : FVec Ideal ⟨2, ![M, K]⟩ .f32) (W : FVec Ideal ⟨2, ![K, N]⟩ .f32) (B : FVec Ideal ⟨2, ![1, N]⟩ .f32)
    (x0 : FVec Ideal ⟨2, ![m, K]⟩ .f32) (w : FVec Ideal ⟨2, ![K, N]⟩ .f32) (x2 : FVec Ideal ⟨2, ![1, N]⟩ .f32)
    (row : Fin m → Fin M)
    (h0 : ∀ a c, x0 (ix2 a c) = X (ix2 (row a) c))
    (hw : ∀ c b, w (ix2 c b) = W (ix2 c b))
    (h2 : ∀ c, x2 (ix2 (0 : Fin 1) c) = B (ix2 (0 : Fin 1) c))
    (hc0 : (⟨2, ![m, K]⟩ : Shape).ShapeCasts ⟨2, ![m, K]⟩) (hc2 : (⟨2, ![1, N]⟩ : Shape).ShapeCasts ⟨2, ![1, N]⟩)
    (hb2 : (⟨2, ![1, N]⟩ : Shape).Broadcasts ⟨2, ![m, N]⟩)
    (hB : (⟨2, ![1, N]⟩ : Shape).BroadcastsInDim ⟨2, ![M, N]⟩ ![0, 1])
    (ht : FTy.bf16.bits < FTy.f32.bits)
    (j : (⟨2, ![m, N]⟩ : Shape).Idx) (i : (⟨2, ![M, N]⟩ : Shape).Idx)
    (hi0 : (i 0).val = (row (j 0)).val) (hi1 : (i 1).val = (j 1).val) :
    addf (matmul (DotDims.plain m K N) prec (truncf .bf16 (shapeCast ⟨2, ![m, K]⟩ x0 hc0) ht) (truncf .bf16 w ht)
          (constant (F := Ideal) ⟨2, ![m, N]⟩ .f32 0x00000000#32))
        (broadcastTo ⟨2, ![m, N]⟩ (shapeCast ⟨2, ![1, N]⟩ x2 hc2) hb2) j
      = addf (Host.dotGeneral (DotDims.plain M K N) prec' X W) (broadcastInDim ⟨2, ![M, N]⟩ ![0, 1] hB B) i := by
  rw [addf_apply, addf_apply]
  have hdot := LibRowBlockDot.matmul_rowBlock_apply_idx prec prec' X W
    (truncf .bf16 (shapeCast ⟨2, ![m, K]⟩ x0 hc0) ht) (truncf .bf16 w ht) row
    (fun a c => by rw [truncf_apply, shapeCast_self, h0]) (fun c b => by rw [truncf_apply, hw]) j i hi0 hi1
  rw [hdot]
  obtain ⟨a, b, rfl⟩ : ∃ (a : Fin m) (b : Fin N), j = ix2 a b := ⟨j 0, j 1, eq_ix2 j⟩
  obtain rfl : i = ix2 (row a) b := by
    rw [eq_ix2 i]
    exact congrArg₂ ix2 (Fin.ext hi0) (Fin.ext hi1)
  congr 1
  rw [broadcastTo_1b_ab_apply, shapeCast_self, h2, broadcastInDim_oneRow_apply]

end Cert.LibGcnBlocks

end
-- ==== Proof.Layer0.lean ====
/-
  The first layer's dense product, node tile by node tile.

  The node axis (200000 rows) is cut into 25 tiles of 8000 rows. At tile t the body reads rows 8000·t … 8000·t + 7999
  of the features X and of the source-degree factor s (a column), the whole weight matrix W, and writes the same rows
  of the result. Each written row r is Σ_c (X(r,c) · s(r)) · W(c,·), which is row r of the ONE whole-array product
  (X ⊙ s) · W; the 25 tiles cover every row, so after the region the result array is that product.
-/
import proofs.«131091_j25555055411820_2_alg».proof.Proof.Gen.KernelIdeal.Frame
import proofs.«131091_j25555055411820_2_alg».proof.Proof.LibGcnBlocks
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

theorem bcastCol32 : S200000x1.BroadcastsInDim S200000x32 (![0, 1] : Fin 2 → Fin S200000x32.rank) := by decide

/-- The whole-array value of the first dense product: rows of X scaled by the column s, times W. -/
def scaledDot0 (X : FVec Ideal S200000x32 .f32) (S : FVec Ideal S200000x1 .f32) (W : FVec Ideal S32x24 .f32) :
    FVec Ideal S200000x24 .f32 :=
  Host.dotGeneral (DotDims.plain 200000 32 24) none (mulf X (broadcastInDim S200000x32 ![0, 1] bcastCol32 S)) W

theorem dot0_plain : dot_S8000x32_S32x24_S8000x24_1_0_0_1_n_n = DotDims.plain 8000 32 24 := rfl

/-- What the body stores at entry j of its tile is the whole product at the entry j stands for. -/
theorem pay0_at (X : FVec Ideal S200000x32 .f32) (S : FVec Ideal S200000x1 .f32) (W : FVec Ideal S32x24 .f32)
    (x0 : Vec Ideal S8000x32 .f32) (x1 : Vec Ideal S8000x1 .f32) (x2 : Vec Ideal S32x24 .f32)
    (row : Fin 8000 → Fin 200000)
    (h0 : ∀ (a : Fin 8000) (c : Fin 32), x0 (ix2 a c) = X (ix2 (row a) c))
    (h1 : ∀ a : Fin 8000, x1 (ix2 a (0 : Fin 1)) = S (ix2 (row a) (0 : Fin 1)))
    (h2 : ∀ (c : Fin 32) (b : Fin 24), x2 (ix2 c b) = W (ix2 c b))
    (j : S8000x24.Idx) (i : S200000x24.Idx) (hi0 : (i 0).val = (row (j 0)).val) (hi1 : (i 1).val = (j 1).val) :
    k0_pay1 x0 x1 x2 j = scaledDot0 X S W i := by
  unfold k0_pay1 scaledDot0
  rw [dot0_plain]
  exact Cert.LibGcnBlocks.scaledDot_block (by decide) none none X S W x0 x1 x2 row h0 h1 h2 _ _ _ _ j i hi0 hi1

/-- The index maps over the 25 tiles: the row-tiled windows are at block (t, 0), the weights at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block row a of tile t is array row 8000·t + a. -/
def row0 (t : Fin cfg0.N) (a : Fin 8000) : Fin 200000 :=
  ⟨t.val * 8000 + a.val, by have := t.isLt; have h : cfg0.N = 25 := N_0; have := a.isLt; omega⟩

/-- What tile t writes back is tile t of the whole product of the arrays as the region finds them. -/
theorem flushed0 (c : Dev nD) (t : Fin cfg0.N) :
    (dat0 V c).flushed 3 t = ((cfg0.win 3).blk t).view.read (Elt Ideal)
      (scaledDot0 (V c main_arg0) (V c main_v10) (V c main_arg3)) := by
  show (cfg0.win 3).cut (grid0.coords t) ((dat0 V c).after 3 t) = _
  rw [after0_3]
  unfold out0_3
  rw [View.canon_unit_zero hz]
  simp only [View.ld_unit_zero (S := S8000x32) hz, View.ld_unit_zero (S := S8000x1) hz, View.ld_unit_zero (S := S32x24) hz]
  obtain ⟨e0, e1, e2, e3, e4, e5, e6, e7⟩ := idx0 t
  funext j
  refine pay0_at (V c main_arg0) (V c main_v10) (V c main_arg3) (iblk0 V c 0 t) (iblk0 V c 1 t) (iblk0 V c 2 t) (row0 t)
    (fun a b => ?_) (fun a => ?_) (fun a b => ?_) j (((cfg0.win 3).blk t).view.emb j) ?_ ?_
  · unfold iblk0
    rw [View.read_apply]
    show V c main_arg0 _ = V c main_arg0 _
    congr 1
    funext ax; apply Fin.ext
    match ax with
    | ⟨0, _⟩ => show win0_0.index t (0 : Fin 2) * 8000 + 1 * a.val = t.val * 8000 + a.val; rw [e0]; omega
    | ⟨1, _⟩ => show win0_0.index t (1 : Fin 2) * 32 + 1 * b.val = b.val; rw [e1]; omega
  · unfold iblk0
    rw [View.read_apply]
    show V c main_v10 _ = V c main_v10 _
    congr 1
    funext ax; apply Fin.ext
    match ax with
    | ⟨0, _⟩ => show win0_1.index t (0 : Fin 2) * 8000 + 1 * a.val = t.val * 8000 + a.val; rw [e2]; omega
    | ⟨1, _⟩ => show win0_1.index t (1 : Fin 2) * 1 + 1 * 0 = 0; rw [e3]
  · unfold iblk0
    rw [View.read_apply]
    show V c main_arg3 _ = V c main_arg3 _
    congr 1
    funext ax; apply Fin.ext
    match ax with
    | ⟨0, _⟩ => show win0_2.index t (0 : Fin 2) * 32 + 1 * a.val = a.val; rw [e4]; omega
    | ⟨1, _⟩ => show win0_2.index t (1 : Fin 2) * 24 + 1 * b.val = b.val; rw [e5]; omega
  · show win0_3.index t (0 : Fin 2) * 8000 + 1 * (j 0).val = t.val * 8000 + (j 0).val; rw [e6]; omega
  · show win0_3.index t (1 : Fin 2) * 24 + 1 * (j 1).val = (j 1).val; rw [e7]; omega

/-- An index of the result array is in tile t's block iff each coordinate is in the block's range on its axis. -/
theorem mem_blk0 (t : Fin cfg0.N) (i : S200000x24.Idx) :
    i ∈ ((cfg0.win 3).blk t).view.set ↔ ∀ a : Fin 2, win0_3.index t a * S8000x24.size a ≤ (i a).val
      ∧ (i a).val < win0_3.index t a * S8000x24.size a + S8000x24.size a := by
  show i ∈ ((View.whole main_v15).slice (win0_3.rect t)).set ↔ _
  rw [View.set_slice_whole, Rect.mem_set_unit]
  exact Iff.rfl

/-- Every row lies in the tile numbered by its quotient by 8000. -/
theorem cover0 (i : S200000x24.Idx) :
    ∃ t : Fin cfg0.N, (cfg0.win 3).flush t = true ∧ i ∈ ((cfg0.win 3).blk t).view.set := by
  have h0 : (i 0).val < 200000 := (i 0).isLt
  have h1 : (i 1).val < 24 := (i 1).isLt
  have hN : cfg0.N = 25 := N_0
  have hlt : (i 0).val / 8000 < cfg0.N := by omega
  refine ⟨⟨(i 0).val / 8000, hlt⟩, flush0_3 _, ?_⟩
  rw [mem_blk0]
  obtain ⟨-, -, -, -, -, -, e6, e7⟩ := idx0 ⟨(i 0).val / 8000, hlt⟩
  intro a
  match a with
  | ⟨0, _⟩ =>
    show win0_3.index ⟨(i 0).val / 8000, hlt⟩ (0 : Fin 2) * 8000 ≤ (i 0).val
      ∧ (i 0).val < win0_3.index ⟨(i 0).val / 8000, hlt⟩ (0 : Fin 2) * 8000 + 8000
    rw [e6]; show (i 0).val / 8000 * 8000 ≤ (i 0).val ∧ (i 0).val < (i 0).val / 8000 * 8000 + 8000; omega
  | ⟨1, _⟩ =>
    show win0_3.index ⟨(i 0).val / 8000, hlt⟩ (1 : Fin 2) * 24 ≤ (i 1).val
      ∧ (i 1).val < win0_3.index ⟨(i 0).val / 8000, hlt⟩ (1 : Fin 2) * 24 + 24
    rw [e7]; omega

/-- After the region the result array holds the whole product of the arrays the region found. -/
theorem final0 (c : Dev nD) :
    (dat0 V c).arrAt 3 cfg0.N = scaledDot0 (V c main_arg0) (V c main_v10) (V c main_arg3) :=
  (dat0 V c).arrAt_eq_of_cover 3 _ (fun t _ => flushed0 V c t) cover0

end Cert.KernelIdeal.Layers

end
-- ==== Proof.Layer1.lean ====
/-
  The first layer's epilogue, node tile by node tile.

  At tile t the body reads rows 8000·t … 8000·t + 7999 of the aggregated messages A and of the destination-degree factor
  s (a column), the whole bias row β, and writes the same rows of the result: entry (r, q) is max(A(r,q) · s(r) + β(q), 0).
  That is entry (r, q) of ONE whole-array formula, and the 25 tiles cover every row, so after the region the result array
  is that formula of the arrays the region found.
-/
import proofs.«131091_j25555055411820_2_alg».proof.Proof.Gen.KernelIdeal.Frame
import proofs.«131091_j25555055411820_2_alg».proof.Proof.LibGcnBlocks
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

theorem bcastCol1 : S200000x1.BroadcastsInDim S200000x24 (![0, 1] : Fin 2 → Fin S200000x24.rank) := by decide
theorem bcastRow1 : S1x24.BroadcastsInDim S200000x24 (![0, 1] : Fin 2 → Fin S200000x24.rank) := by decide
theorem bcastZero1 : S_.BroadcastsInDim S200000x24 (![] : Fin 0 → Fin S200000x24.rank) := by decide

/-- The whole-array value of the epilogue: the aggregate scaled per row, the bias row added, clipped below at zero. -/
def scaleBiasRelu1 (A : FVec Ideal S200000x24 .f32) (S : FVec Ideal S200000x1 .f32) (B : FVec Ideal S1x24 .f32) :
    FVec Ideal S200000x24 .f32 :=
  maximumf (addf (mulf A (broadcastInDim S200000x24 ![0, 1] bcastCol1 S)) (broadcastInDim S200000x24 ![0, 1] bcastRow1 B))
    (broadcastInDim S200000x24 ![] bcastZero1 (constant (F := Ideal) S_ .f32 0x00000000#32))

/-- What the body stores at entry j of its tile is the whole formula at the entry j stands for. -/
theorem pay1_at (A : FVec Ideal S200000x24 .f32) (S : FVec Ideal S200000x1 .f32) (B : FVec Ideal S1x24 .f32)
    (x0 : Vec Ideal S8000x24 .f32) (x1 : Vec Ideal S8000x1 .f32) (x2 : Vec Ideal S1x24 .f32)
    (row : Fin 8000 → Fin 200000)
    (h0 : ∀ (a : Fin 8000) (c : Fin 24), x0 (ix2 a c) = A (ix2 (row a) c))
    (h1 : ∀ a : Fin 8000, x1 (ix2 a (0 : Fin 1)) = S (ix2 (row a) (0 : Fin 1)))
    (h2 : ∀ c : Fin 24, x2 (ix2 (0 : Fin 1) c) = B (ix2 (0 : Fin 1) c))
    (j : S8000x24.Idx) (i : S200000x24.Idx) (hi0 : (i 0).val = (row (j 0)).val) (hi1 : (i 1).val = (j 1).val) :
    k1_pay1 x0 x1 x2 j = scaleBiasRelu1 A S B i := by
  unfold k1_pay1 scaleBiasRelu1
  exact Cert.LibGcnBlocks.scaleBiasRelu_block (by decide) A S B x0 x1 x2 row h0 h1 h2 _ _ _ _ _ _ _ _ j i hi0 hi1

/-- The index maps over the 25 tiles: the row-tiled windows are at block (t, 0), the bias row at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block row a of tile t is array row 8000·t + a. -/
def row1 (t : Fin cfg1.N) (a : Fin 8000) : Fin 200000 :=
  ⟨t.val * 8000 + a.val, by have := t.isLt; have h : cfg1.N = 25 := N_1; have := a.isLt; omega⟩

/-- What tile t writes back is tile t of the whole formula of the arrays as the region finds them. -/
theorem flushed1 (c : Dev nD) (t : Fin cfg1.N) :
    (dat1 V c).flushed 3 t = ((cfg1.win 3).blk t).view.read (Elt Ideal)
      (scaleBiasRelu1 (V c main_v25) (V c main_v14) (V c main_v26)) := by
  show (cfg1.win 3).cut (grid1.coords t) ((dat1 V c).after 3 t) = _
  rw [after1_3]
  unfold out1_3
  rw [View.canon_unit_zero hz1]
  simp only [View.ld_unit_zero (S := S8000x24) hz1, View.ld_unit_zero (S := S8000x1) hz1, View.ld_unit_zero (S := S1x24) hz1]
  obtain ⟨e0, e1, e2, e3, e4, e5, e6, e7⟩ := idx1 t
  funext j
  refine pay1_at (V c main_v25) (V c main_v14) (V c main_v26) (iblk1 V c 0 t) (iblk1 V c 1 t) (iblk1 V c 2 t) (row1 t)
    (fun a b => ?_) (fun a => ?_) (fun b => ?_) j (((cfg1.win 3).blk t).view.emb j) ?_ ?_
  · unfold iblk1
    rw [View.read_apply]
    show V c main_v25 _ = V c main_v25 _
    congr 1
    funext ax; apply Fin.ext
    match ax with
    | ⟨0, _⟩ => show win1_0.index t (0 : Fin 2) * 8000 + 1 * a.val = t.val * 8000 + a.val; rw [e0]; omega
    | ⟨1, _⟩ => show win1_0.index t (1 : Fin 2) * 24 + 1 * b.val = b.val; rw [e1]; omega
  · unfold iblk1
    rw [View.read_apply]
    show V c main_v14 _ = V c main_v14 _
    congr 1
    funext ax; apply Fin.ext
    match ax with
    | ⟨0, _⟩ => show win1_1.index t (0 : Fin 2) * 8000 + 1 * a.val = t.val * 8000 + a.val; rw [e2]; omega
    | ⟨1, _⟩ => show win1_1.index t (1 : Fin 2) * 1 + 1 * 0 = 0; rw [e3]
  · unfold iblk1
    rw [View.read_apply]
    show V c main_v26 _ = V c main_v26 _
    congr 1
    funext ax; apply Fin.ext
    match ax with
    | ⟨0, _⟩ => show win1_2.index t (0 : Fin 2) * 1 + 1 * 0 = 0; rw [e4]
    | ⟨1, _⟩ => show win1_2.index t (1 : Fin 2) * 24 + 1 * b.val = b.val; rw [e5]; omega
  · show win1_3.index t (0 : Fin 2) * 8000 + 1 * (j 0).val = t.val * 8000 + (j 0).val; rw [e6]; omega
  · show win1_3.index t (1 : Fin 2) * 24 + 1 * (j 1).val = (j 1).val; rw [e7]; omega

/-- An index of the result array is in tile t's block iff each coordinate is in the block's range on its axis. -/
theorem mem_blk1 (t : Fin cfg1.N) (i : S200000x24.Idx) :
    i ∈ ((cfg1.win 3).blk t).view.set ↔ ∀ a : Fin 2, win1_3.index t a * S8000x24.size a ≤ (i a).val
      ∧ (i a).val < win1_3.index t a * S8000x24.size a + S8000x24.size a := by
  show i ∈ ((View.whole main_v27).slice (win1_3.rect t)).set ↔ _
  rw [View.set_slice_whole, Rect.mem_set_unit]
  exact Iff.rfl

/-- Every row lies in the tile numbered by its quotient by 8000. -/
theorem cover1 (i : S200000x24.Idx) :
    ∃ t : Fin cfg1.N, (cfg1.win 3).flush t = true ∧ i ∈ ((cfg1.win 3).blk t).view.set := by
  have h0 : (i 0).val < 200000 := (i 0).isLt
  have h1 : (i 1).val < 24 := (i 1).isLt
  have hN : cfg1.N = 25 := N_1
  have hlt : (i 0).val / 8000 < cfg1.N := by omega
  refine ⟨⟨(i 0).val / 8000, hlt⟩, flush1_3 _, ?_⟩
  rw [mem_blk1]
  obtain ⟨-, -, -, -, -, -, e6, e7⟩ := idx1 ⟨(i 0).val / 8000, hlt⟩
  intro a
  match a with
  | ⟨0, _⟩ =>
    show win1_3.index ⟨(i 0).val / 8000, hlt⟩ (0 : Fin 2) * 8000 ≤ (i 0).val
      ∧ (i 0).val < win1_3.index ⟨(i 0).val / 8000, hlt⟩ (0 : Fin 2) * 8000 + 8000
    rw [e6]; show (i 0).val / 8000 * 8000 ≤ (i 0).val ∧ (i 0).val < (i 0).val / 8000 * 8000 + 8000; omega
  | ⟨1, _⟩ =>
    show win1_3.index ⟨(i 0).val / 8000, hlt⟩ (1 : Fin 2) * 24 ≤ (i 1).val
      ∧ (i 1).val < win1_3.index ⟨(i 0).val / 8000, hlt⟩ (1 : Fin 2) * 24 + 24
    rw [e7]; omega

/-- After the region the result array holds the whole formula of the arrays the region found. -/
theorem final1 (c : Dev nD) :
    (dat1 V c).arrAt 3 cfg1.N = scaleBiasRelu1 (V c main_v25) (V c main_v14) (V c main_v26) :=
  (dat1 V c).arrAt_eq_of_cover 3 _ (fun t _ => flushed1 V c t) cover1

end Cert.KernelIdeal.Layers

end
-- ==== Proof.Layer2.lean ====
/-
  The second layer's dense product, node tile by node tile.

  As in the first layer, with the first layer's activations H (24 columns) in place of the features: at tile t the body
  reads rows 8000·t … 8000·t + 7999 of H and of the source-degree factor s, the whole 24×24 weight matrix W, and writes
  the same rows of the result; each written row r is Σ_c (H(r,c) · s(r)) · W(c,·), row r of the one whole-array product
  (H ⊙ s) · W, and the 25 tiles cover every row.
-/
import proofs.«131091_j25555055411820_2_alg».proof.Proof.Gen.KernelIdeal.Frame
import proofs.«131091_j25555055411820_2_alg».proof.Proof.LibGcnBlocks
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

theorem bcastCol24_2 : S200000x1.BroadcastsInDim S200000x24 (![0, 1] : Fin 2 → Fin S200000x24.rank) := by decide

/-- The whole-array value of the second dense product: rows of X scaled by the column s, times W. -/
def scaledDot2 (X : FVec Ideal S200000x24 .f32) (S : FVec Ideal S200000x1 .f32) (W : FVec Ideal S24x24 .f32) :
    FVec Ideal S200000x24 .f32 :=
  Host.dotGeneral (DotDims.plain 200000 24 24) none (mulf X (broadcastInDim S200000x24 ![0, 1] bcastCol24_2 S)) W

theorem dot2_plain : dot_S8000x24_S24x24_S8000x24_1_0_0_1_n_n = DotDims.plain 8000 24 24 := rfl

/-- What the body stores at entry j of its tile is the whole product at the entry j stands for. -/
theorem pay2_at (X : FVec Ideal S200000x24 .f32) (S : FVec Ideal S200000x1 .f32) (W : FVec Ideal S24x24 .f32)
    (x0 : Vec Ideal S8000x24 .f32) (x1 : Vec Ideal S8000x1 .f32) (x2 : Vec Ideal S24x24 .f32)
    (row : Fin 8000 → Fin 200000)
    (h0 : ∀ (a : Fin 8000) (c : Fin 24), x0 (ix2 a c) = X (ix2 (row a) c))
    (h1 : ∀ a : Fin 8000, x1 (ix2 a (0 : Fin 1)) = S (ix2 (row a) (0 : Fin 1)))
    (h2 : ∀ (c : Fin 24) (b : Fin 24), x2 (ix2 c b) = W (ix2 c b))
    (j : S8000x24.Idx) (i : S200000x24.Idx) (hi0 : (i 0).val = (row (j 0)).val) (hi1 : (i 1).val = (j 1).val) :
    k2_pay1 x0 x1 x2 j = scaledDot2 X S W i := by
  unfold k2_pay1 scaledDot2
  rw [dot2_plain, shapeCast_self x0]
  exact Cert.LibGcnBlocks.scaledDot_block (by decide) none none X S W x0 x1 x2 row h0 h1 h2 _ _ _ _ j i hi0 hi1

/-- The index maps over the 25 tiles: the row-tiled windows are at block (t, 0), the weights at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Block row a of tile t is array row 8000·t + a. -/
def row2 (t : Fin cfg2.N) (a : Fin 8000) : Fin 200000 :=
  ⟨t.val * 8000 + a.val, by have := t.isLt; have h : cfg2.N = 25 := N_2; have := a.isLt; omega⟩

/-- What tile t writes back is tile t of the whole product of the arrays as the region finds them. -/
theorem flushed2 (c : Dev nD) (t : Fin cfg2.N) :
    (dat2 V c).flushed 3 t = ((cfg2.win 3).blk t).view.read (Elt Ideal)
      (scaledDot2 (V c main_v27) (V c main_v10) (V c main_arg5)) := by
  show (cfg2.win 3).cut (grid2.coords t) ((dat2 V c).after 3 t) = _
  rw [after2_3]
  unfold out2_3
  rw [View.canon_unit_zero hz2]
  simp only [View.ld_unit_zero (S := S8000x24) hz2, View.ld_unit_zero (S := S8000x1) hz2, View.ld_unit_zero (S := S24x24) hz2]
  obtain ⟨e0, e1, e2, e3, e4, e5, e6, e7⟩ := idx2 t
  funext j
  refine pay2_at (V c main_v27) (V c main_v10) (V c main_arg5) (iblk2 V c 0 t) (iblk2 V c 1 t) (iblk2 V c 2 t) (row2 t)
    (fun a b => ?_) (fun a => ?_) (fun a b => ?_) j (((cfg2.win 3).blk t).view.emb j) ?_ ?_
  · unfold iblk2
    rw [View.read_apply]
    show V c main_v27 _ = V c main_v27 _
    congr 1
    funext ax; apply Fin.ext
    match ax with
    | ⟨0, _⟩ => show win2_0.index t (0 : Fin 2) * 8000 + 1 * a.val = t.val * 8000 + a.val; rw [e0]; omega
    | ⟨1, _⟩ => show win2_0.index t (1 : Fin 2) * 24 + 1 * b.val = b.val; rw [e1]; omega
  · unfold iblk2
    rw [View.read_apply]
    show V c main_v10 _ = V c main_v10 _
    congr 1
    funext ax; apply Fin.ext
    match ax with
    | ⟨0, _⟩ => show win2_1.index t (0 : Fin 2) * 8000 + 1 * a.val = t.val * 8000 + a.val; rw [e2]; omega
    | ⟨1, _⟩ => show win2_1.index t (1 : Fin 2) * 1 + 1 * 0 = 0; rw [e3]
  · unfold iblk2
    rw [View.read_apply]
    show V c main_arg5 _ = V c main_arg5 _
    congr 1
    funext ax; apply Fin.ext
    match ax with
    | ⟨0, _⟩ => show win2_2.index t (0 : Fin 2) * 24 + 1 * a.val = a.val; rw [e4]; omega
    | ⟨1, _⟩ => show win2_2.index t (1 : Fin 2) * 24 + 1 * b.val = b.val; rw [e5]; omega
  · show win2_3.index t (0 : Fin 2) * 8000 + 1 * (j 0).val = t.val * 8000 + (j 0).val; rw [e6]; omega
  · show win2_3.index t (1 : Fin 2) * 24 + 1 * (j 1).val = (j 1).val; rw [e7]; omega

/-- An index of the result array is in tile t's block iff each coordinate is in the block's range on its axis. -/
theorem mem_blk2 (t : Fin cfg2.N) (i : S200000x24.Idx) :
    i ∈ ((cfg2.win 3).blk t).view.set ↔ ∀ a : Fin 2, win2_3.index t a * S8000x24.size a ≤ (i a).val
      ∧ (i a).val < win2_3.index t a * S8000x24.size a + S8000x24.size a := by
  show i ∈ ((View.whole main_v28).slice (win2_3.rect t)).set ↔ _
  rw [View.set_slice_whole, Rect.mem_set_unit]
  exact Iff.rfl

/-- Every row lies in the tile numbered by its quotient by 8000. -/
theorem cover2 (i : S200000x24.Idx) :
    ∃ t : Fin cfg2.N, (cfg2.win 3).flush t = true ∧ i ∈ ((cfg2.win 3).blk t).view.set := by
  have h0 : (i 0).val < 200000 := (i 0).isLt
  have h1 : (i 1).val < 24 := (i 1).isLt
  have hN : cfg2.N = 25 := N_2
  have hlt : (i 0).val / 8000 < cfg2.N := by omega
  refine ⟨⟨(i 0).val / 8000, hlt⟩, flush2_3 _, ?_⟩
  rw [mem_blk2]
  obtain ⟨-, -, -, -, -, -, e6, e7⟩ := idx2 ⟨(i 0).val / 8000, hlt⟩
  intro a
  match a with
  | ⟨0, _⟩ =>
    show win2_3.index ⟨(i 0).val / 8000, hlt⟩ (0 : Fin 2) * 8000 ≤ (i 0).val
      ∧ (i 0).val < win2_3.index ⟨(i 0).val / 8000, hlt⟩ (0 : Fin 2) * 8000 + 8000
    rw [e6]; show (i 0).val / 8000 * 8000 ≤ (i 0).val ∧ (i 0).val < (i 0).val / 8000 * 8000 + 8000; omega
  | ⟨1, _⟩ =>
    show win2_3.index ⟨(i 0).val / 8000, hlt⟩ (1 : Fin 2) * 24 ≤ (i 1).val
      ∧ (i 1).val < win2_3.index ⟨(i 0).val / 8000, hlt⟩ (1 : Fin 2) * 24 + 24
    rw [e7]; omega

/-- After the region the result array holds the whole product of the arrays the region found. -/
theorem final2 (c : Dev nD) :
    (dat2 V c).arrAt 3 cfg2.N = scaledDot2 (V c main_v27) (V c main_v10) (V c main_arg5) :=
  (dat2 V c).arrAt_eq_of_cover 3 _ (fun t _ => flushed2 V c t) cover2

end Cert.KernelIdeal.Layers

end
-- ==== Proof.Layer3.lean ====
/-
  The second layer's epilogue, node tile by node tile.

  At tile t the body reads rows 8000·t … 8000·t + 7999 of the aggregated messages A and of the destination-degree factor
  s (a column), the whole bias row β, and writes the same rows of the result: entry (r, q) is max(A(r,q) · s(r) + β(q), 0).
  That is entry (r, q) of ONE whole-array formula, and the 25 tiles cover every row, so after the region the result array
  is that formula of the arrays the region found.
-/
import proofs.«131091_j25555055411820_2_alg».proof.Proof.Gen.KernelIdeal.Frame
import proofs.«131091_j25555055411820_2_alg».proof.Proof.LibGcnBlocks
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen

variable (V : (c : Dev nD) → (b : Ref sig .tc) → Buf (Elt Ideal) ((c : Thread nD τ).loc b))

theorem hz3 : (![0, 0] : Fin 2 → Nat) = fun _ => 0 := funext fun a => by fin_cases a <;> rfl

theorem bcastCol3 : S200000x1.BroadcastsInDim S200000x24 (![0, 1] : Fin 2 → Fin S200000x24.rank) := by decide
theorem bcastRow3 : S1x24.BroadcastsInDim S200000x24 (![0, 1] : Fin 2 → Fin S200000x24.rank) := by decide
theorem bcastZero3 : S_.BroadcastsInDim S200000x24 (![] : Fin 0 → Fin S200000x24.rank) := by decide

/-- The whole-array value of the epilogue: the aggregate scaled per row, the bias row added, clipped below at zero. -/
def scaleBiasRelu3 (A : FVec Ideal S200000x24 .f32) (S : FVec Ideal S200000x1 .f32) (B : FVec Ideal S1x24 .f32) :
    FVec Ideal S200000x24 .f32 :=
  maximumf (addf (mulf A (broadcastInDim S200000x24 ![0, 1] bcastCol3 S)) (broadcastInDim S200000x24 ![0, 1] bcastRow3 B))
    (broadcastInDim S200000x24 ![] bcastZero3 (constant (F := Ideal) S_ .f32 0x00000000#32))

/-- What the body stores at entry j of its tile is the whole formula at the entry j stands for. -/
theorem pay3_at (A : FVec Ideal S200000x24 .f32) (S : FVec Ideal S200000x1 .f32) (B : FVec Ideal S1x24 .f32)
    (x0 : Vec Ideal S8000x24 .f32) (x1 : Vec Ideal S8000x1 .f32) (x2 : Vec Ideal S1x24 .f32)
    (row : Fin 8000 → Fin 200000)
    (h0 : ∀ (a : Fin 8000) (c : Fin 24), x0 (ix2 a c) = A (ix2 (row a) c))
    (h1 : ∀ a : Fin 8000, x1 (ix2 a (0 : Fin 1)) = S (ix2 (row a) (0 : Fin 1)))
    (h2 : ∀ c : Fin 24, x2 (ix2 (0 : Fin 1) c) = B (ix2 (0 : Fin 1) c))
    (j : S8000x24.Idx) (i : S200000x24.Idx) (hi0 : (i 0).val = (row (j 0)).val) (hi1 : (i 1).val = (j 1).val) :
    k3_pay1 x0 x1 x2 j = scaleBiasRelu3 A S B i := by
  unfold k3_pay1 scaleBiasRelu3
  exact Cert.LibGcnBlocks.scaleBiasRelu_block (by decide) A S B x0 x1 x2 row h0 h1 h2 _ _ _ _ _ _ _ _ j i hi0 hi1

/-- The index maps over the 25 tiles: the row-tiled windows are at block (t, 0), the bias row at block (0, 0). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Block row a of tile t is array row 8000·t + a. -/
def row3 (t : Fin cfg3.N) (a : Fin 8000) : Fin 200000 :=
  ⟨t.val * 8000 + a.val, by have := t.isLt; have h : cfg3.N = 25 := N_3; have := a.isLt; omega⟩

/-- What tile t writes back is tile t of the whole formula of the arrays as the region finds them. -/
theorem flushed3 (c : Dev nD) (t : Fin cfg3.N) :
    (dat3 V c).flushed 3 t = ((cfg3.win 3).blk t).view.read (Elt Ideal)
      (scaleBiasRelu3 (V c main_v38) (V c main_v14) (V c main_v39)) := by
  show (cfg3.win 3).cut (grid3.coords t) ((dat3 V c).after 3 t) = _
  rw [after3_3]
  unfold out3_3
  rw [View.canon_unit_zero hz3]
  simp only [View.ld_unit_zero (S := S8000x24) hz3, View.ld_unit_zero (S := S8000x1) hz3, View.ld_unit_zero (S := S1x24) hz3]
  obtain ⟨e0, e1, e2, e3, e4, e5, e6, e7⟩ := idx3 t
  funext j
  refine pay3_at (V c main_v38) (V c main_v14) (V c main_v39) (iblk3 V c 0 t) (iblk3 V c 1 t) (iblk3 V c 2 t) (row3 t)
    (fun a b => ?_) (fun a => ?_) (fun b => ?_) j (((cfg3.win 3).blk t).view.emb j) ?_ ?_
  · unfold iblk3
    rw [View.read_apply]
    show V c main_v38 _ = V c main_v38 _
    congr 1
    funext ax; apply Fin.ext
    match ax with
    | ⟨0, _⟩ => show win3_0.index t (0 : Fin 2) * 8000 + 1 * a.val = t.val * 8000 + a.val; rw [e0]; omega
    | ⟨1, _⟩ => show win3_0.index t (1 : Fin 2) * 24 + 1 * b.val = b.val; rw [e1]; omega
  · unfold iblk3
    rw [View.read_apply]
    show V c main_v14 _ = V c main_v14 _
    congr 1
    funext ax; apply Fin.ext
    match ax with
    | ⟨0, _⟩ => show win3_1.index t (0 : Fin 2) * 8000 + 1 * a.val = t.val * 8000 + a.val; rw [e2]; omega
    | ⟨1, _⟩ => show win3_1.index t (1 : Fin 2) * 1 + 1 * 0 = 0; rw [e3]
  · unfold iblk3
    rw [View.read_apply]
    show V c main_v39 _ = V c main_v39 _
    congr 1
    funext ax; apply Fin.ext
    match ax with
    | ⟨0, _⟩ => show win3_2.index t (0 : Fin 2) * 1 + 1 * 0 = 0; rw [e4]
    | ⟨1, _⟩ => show win3_2.index t (1 : Fin 2) * 24 + 1 * b.val = b.val; rw [e5]; omega
  · show win3_3.index t (0 : Fin 2) * 8000 + 1 * (j 0).val = t.val * 8000 + (j 0).val; rw [e6]; omega
  · show win3_3.index t (1 : Fin 2) * 24 + 1 * (j 1).val = (j 1).val; rw [e7]; omega

/-- An index of the result array is in tile t's block iff each coordinate is in the block's range on its axis. -/
theorem mem_blk3 (t : Fin cfg3.N) (i : S200000x24.Idx) :
    i ∈ ((cfg3.win 3).blk t).view.set ↔ ∀ a : Fin 2, win3_3.index t a * S8000x24.size a ≤ (i a).val
      ∧ (i a).val < win3_3.index t a * S8000x24.size a + S8000x24.size a := by
  show i ∈ ((View.whole main_v40).slice (win3_3.rect t)).set ↔ _
  rw [View.set_slice_whole, Rect.mem_set_unit]
  exact Iff.rfl

/-- Every row lies in the tile numbered by its quotient by 8000. -/
theorem cover3 (i : S200000x24.Idx) :
    ∃ t : Fin cfg3.N, (cfg3.win 3).flush t = true ∧ i ∈ ((cfg3.win 3).blk t).view.set := by
  have h0 : (i 0).val < 200000 := (i 0).isLt
  have h1 : (i 1).val < 24 := (i 1).isLt
  have hN : cfg3.N = 25 := N_3
  have hlt : (i 0).val / 8000 < cfg3.N := by omega
  refine ⟨⟨(i 0).val / 8000, hlt⟩, flush3_3 _, ?_⟩
  rw [mem_blk3]
  obtain ⟨-, -, -, -, -, -, e6, e7⟩ := idx3 ⟨(i 0).val / 8000, hlt⟩
  intro a
  match a with
  | ⟨0, _⟩ =>
    show win3_3.index ⟨(i 0).val / 8000, hlt⟩ (0 : Fin 2) * 8000 ≤ (i 0).val
      ∧ (i 0).val < win3_3.index ⟨(i 0).val / 8000, hlt⟩ (0 : Fin 2) * 8000 + 8000
    rw [e6]; show (i 0).val / 8000 * 8000 ≤ (i 0).val ∧ (i 0).val < (i 0).val / 8000 * 8000 + 8000; omega
  | ⟨1, _⟩ =>
    show win3_3.index ⟨(i 0).val / 8000, hlt⟩ (1 : Fin 2) * 24 ≤ (i 1).val
      ∧ (i 1).val < win3_3.index ⟨(i 0).val / 8000, hlt⟩ (1 : Fin 2) * 24 + 24
    rw [e7]; omega

/-- After the region the result array holds the whole formula of the arrays the region found. -/
theorem final3 (c : Dev nD) :
    (dat3 V c).arrAt 3 cfg3.N = scaleBiasRelu3 (V c main_v38) (V c main_v14) (V c main_v39) :=
  (dat3 V c).arrAt_eq_of_cover 3 _ (fun t _ => flushed3 V c t) cover3

end Cert.KernelIdeal.Layers

end
-- ==== Proof.Layer4.lean ====
/-
  The dense head, row tile by row tile.

  The 50000 rows of the reshaped activations X (96 columns) are cut into 5 tiles of 10000 rows. At tile t the body reads
  rows 10000·t … 10000·t + 9999 of X, the whole 96×1 weight column W and the 1×1 bias β, and writes the same rows of the
  result: entry (r, 0) is Σ_c X(r,c) · W(c,0) + β. That is entry (r, 0) of ONE whole-array formula, X·W with the bias
  added to every row, and the 5 tiles cover every row.
-/
import proofs.«131091_j25555055411820_2_alg».proof.Proof.Gen.KernelIdeal.Frame
import proofs.«131091_j25555055411820_2_alg».proof.Proof.LibGcnBlocks
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen

variable (V : (c : Dev nD) → (b : Ref sig .tc) → Buf (Elt Ideal) ((c : Thread nD τ).loc b))

theorem hz4 : (![0, 0] : Fin 2 → Nat) = fun _ => 0 := funext fun a => by fin_cases a <;> rfl

theorem bcastRow4 : S1x1.BroadcastsInDim S50000x1 (![0, 1] : Fin 2 → Fin S50000x1.rank) := by decide

/-- The whole-array value of the head: the product with the weight column, the bias added to every row. -/
def denseBias4 (X : FVec Ideal S50000x96 .f32) (W : FVec Ideal S96x1 .f32) (B : FVec Ideal S1x1 .f32) :
    FVec Ideal S50000x1 .f32 :=
  addf (Host.dotGeneral (DotDims.plain 50000 96 1) none X W) (broadcastInDim S50000x1 ![0, 1] bcastRow4 B)

theorem dot4_plain : dot_S10000x96_S96x1_S10000x1_1_0_0_1_n_n = DotDims.plain 10000 96 1 := rfl

/-- What the body stores at entry j of its tile is the whole formula at the entry j stands for. -/
theorem pay4_at (X : FVec Ideal S50000x96 .f32) (W : FVec Ideal S96x1 .f32) (B : FVec Ideal S1x1 .f32)
    (x0 : Vec Ideal S10000x96 .f32) (x1 : Vec Ideal S96x1 .f32) (x2 : Vec Ideal S1x1 .f32)
    (row : Fin 10000 → Fin 50000)
    (h0 : ∀ (a : Fin 10000) (c : Fin 96), x0 (ix2 a c) = X (ix2 (row a) c))
    (h1 : ∀ (c : Fin 96) (b : Fin 1), x1 (ix2 c b) = W (ix2 c b))
    (h2 : ∀ c : Fin 1, x2 (ix2 (0 : Fin 1) c) = B (ix2 (0 : Fin 1) c))
    (j : S10000x1.Idx) (i : S50000x1.Idx) (hi0 : (i 0).val = (row (j 0)).val) (hi1 : (i 1).val = (j 1).val) :
    k4_pay1 x0 x1 x2 j = denseBias4 X W B i := by
  unfold k4_pay1 denseBias4
  rw [dot4_plain]
  exact Cert.LibGcnBlocks.denseBias_block none none X W B x0 x1 x2 row h0 h1 h2 _ _ _ _ _ j i hi0 hi1

/-- The index maps over the 5 tiles: the row-tiled windows are at block (t, 0), the weights and the bias at block (0, 0). -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Block row a of tile t is array row 10000·t + a. -/
def row4 (t : Fin cfg4.N) (a : Fin 10000) : Fin 50000 :=
  ⟨t.val * 10000 + a.val, by have := t.isLt; have h : cfg4.N = 5 := N_4; have := a.isLt; omega⟩

/-- What tile t writes back is tile t of the whole formula of the arrays as the region finds them. -/
theorem flushed4 (c : Dev nD) (t : Fin cfg4.N) :
    (dat4 V c).flushed 3 t = ((cfg4.win 3).blk t).view.read (Elt Ideal)
      (denseBias4 (V c main_v41) (V c main_arg7) (V c main_v42)) := by
  show (cfg4.win 3).cut (grid4.coords t) ((dat4 V c).after 3 t) = _
  rw [after4_3]
  unfold out4_3
  rw [View.canon_unit_zero hz4]
  simp only [View.ld_unit_zero (S := S10000x96) hz4, View.ld_unit_zero (S := S96x1) hz4, View.ld_unit_zero (S := S1x1) hz4]
  obtain ⟨e0, e1, e2, e3, e4, e5, e6, e7⟩ := idx4 t
  funext j
  refine pay4_at (V c main_v41) (V c main_arg7) (V c main_v42) (iblk4 V c 0 t) (iblk4 V c 1 t) (iblk4 V c 2 t) (row4 t)
    (fun a b => ?_) (fun a b => ?_) (fun b => ?_) j (((cfg4.win 3).blk t).view.emb j) ?_ ?_
  · unfold iblk4
    rw [View.read_apply]
    show V c main_v41 _ = V c main_v41 _
    congr 1
    funext ax; apply Fin.ext
    match ax with
    | ⟨0, _⟩ => show win4_0.index t (0 : Fin 2) * 10000 + 1 * a.val = t.val * 10000 + a.val; rw [e0]; omega
    | ⟨1, _⟩ => show win4_0.index t (1 : Fin 2) * 96 + 1 * b.val = b.val; rw [e1]; omega
  · unfold iblk4
    rw [View.read_apply]
    show V c main_arg7 _ = V c main_arg7 _
    congr 1
    funext ax; apply Fin.ext
    match ax with
    | ⟨0, _⟩ => show win4_1.index t (0 : Fin 2) * 96 + 1 * a.val = a.val; rw [e2]; omega
    | ⟨1, _⟩ => show win4_1.index t (1 : Fin 2) * 1 + 1 * b.val = b.val; rw [e3]; omega
  · unfold iblk4
    rw [View.read_apply]
    show V c main_v42 _ = V c main_v42 _
    congr 1
    funext ax; apply Fin.ext
    match ax with
    | ⟨0, _⟩ => show win4_2.index t (0 : Fin 2) * 1 + 1 * 0 = 0; rw [e4]
    | ⟨1, _⟩ => show win4_2.index t (1 : Fin 2) * 1 + 1 * b.val = b.val; rw [e5]; omega
  · show win4_3.index t (0 : Fin 2) * 10000 + 1 * (j 0).val = t.val * 10000 + (j 0).val; rw [e6]; omega
  · show win4_3.index t (1 : Fin 2) * 1 + 1 * (j 1).val = (j 1).val; rw [e7]; omega

/-- An index of the result array is in tile t's block iff each coordinate is in the block's range on its axis. -/
theorem mem_blk4 (t : Fin cfg4.N) (i : S50000x1.Idx) :
    i ∈ ((cfg4.win 3).blk t).view.set ↔ ∀ a : Fin 2, win4_3.index t a * S10000x1.size a ≤ (i a).val
      ∧ (i a).val < win4_3.index t a * S10000x1.size a + S10000x1.size a := by
  show i ∈ ((View.whole main_v43).slice (win4_3.rect t)).set ↔ _
  rw [View.set_slice_whole, Rect.mem_set_unit]
  exact Iff.rfl

/-- Every row lies in the tile numbered by its quotient by 10000. -/
theorem cover4 (i : S50000x1.Idx) :
    ∃ t : Fin cfg4.N, (cfg4.win 3).flush t = true ∧ i ∈ ((cfg4.win 3).blk t).view.set := by
  have h0 : (i 0).val < 50000 := (i 0).isLt
  have h1 : (i 1).val < 1 := (i 1).isLt
  have hN : cfg4.N = 5 := N_4
  have hlt : (i 0).val / 10000 < cfg4.N := by omega
  refine ⟨⟨(i 0).val / 10000, hlt⟩, flush4_3 _, ?_⟩
  rw [mem_blk4]
  obtain ⟨-, -, -, -, -, -, e6, e7⟩ := idx4 ⟨(i 0).val / 10000, hlt⟩
  intro a
  match a with
  | ⟨0, _⟩ =>
    show win4_3.index ⟨(i 0).val / 10000, hlt⟩ (0 : Fin 2) * 10000 ≤ (i 0).val
      ∧ (i 0).val < win4_3.index ⟨(i 0).val / 10000, hlt⟩ (0 : Fin 2) * 10000 + 10000
    rw [e6]; show (i 0).val / 10000 * 10000 ≤ (i 0).val ∧ (i 0).val < (i 0).val / 10000 * 10000 + 10000; omega
  | ⟨1, _⟩ =>
    show win4_3.index ⟨(i 0).val / 10000, hlt⟩ (1 : Fin 2) * 1 ≤ (i 1).val
      ∧ (i 1).val < win4_3.index ⟨(i 0).val / 10000, hlt⟩ (1 : Fin 2) * 1 + 1
    rw [e7]; omega

/-- After the region the result array holds the whole formula of the arrays the region found. -/
theorem final4 (c : Dev nD) :
    (dat4 V c).arrAt 3 cfg4.N = denseBias4 (V c main_v41) (V c main_arg7) (V c main_v42) :=
  (dat4 V c).arrAt_eq_of_cover 3 _ (fun t _ => flushed4 V c t) cover4

end Cert.KernelIdeal.Layers

end
-- ==== Proof.Fold.lean ====
/-
  The kernel program end to end: what its result buffer holds, as one function of the nine arguments.

  The program alternates stretches of host operations with five tiled regions. Each region leaves in its result array
  one whole-array formula of the arrays it found (the per-layer modules); each host stretch computes its results from the
  arrays before it (degree counts and their inverse square roots, the wrapped gather indices, the message passing by
  gather and scatter-add, the reshapes). Following the buffers from the launch memory through the nine boundaries, every
  array a region or stretch reads is either an argument nobody wrote or the result of an earlier step, so the result
  buffer ends at the composition: two graph convolutions relu(D_in^{-1/2} · A · ((X ⊙ D_out^{-1/2}) · W) + b), a
  reshape of four nodes per row, and the dense head.
-/
import proofs.«131091_j25555055411820_2_alg».proof.Proof.Gen.KernelIdeal.Frame
import proofs.«131091_j25555055411820_2_alg».proof.Proof.Layer0
import proofs.«131091_j25555055411820_2_alg».proof.Proof.Layer1
import proofs.«131091_j25555055411820_2_alg».proof.Proof.Layer2
import proofs.«131091_j25555055411820_2_alg».proof.Proof.Layer3
import proofs.«131091_j25555055411820_2_alg».proof.Proof.Layer4
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Layers

open Cert.KernelIdeal Cert.KernelIdeal.Gen

/-! ## The host stretches between the regions, as functions of the arrays they read -/

/-- A node's degree counted from an index list: ones scatter-added into zeros. -/
def degree (idx : IVec S1600000 32) : FVec Ideal S200000 .f32 :=
  Host.scatterAdd scatter_S200000_S1600000x1_S1600000_n_0_0_1
    (broadcastInDim S200000 ![] Gen.bcast_S_S200000 (constant (F := Ideal) S_ .f32 0x00000000#32))
    (broadcastInDim S1600000x1 ![0] Gen.bcast_S1600000_S1600000x1_0 idx)
    (broadcastInDim S1600000 ![] Gen.bcast_S_S1600000 (constant (F := Ideal) S_ .f32 0x3F800000#32))

/-- The degree factor 1/sqrt(max(degree, 1)), one entry per node. -/
def invSqrtDeg (idx : IVec S1600000 32) : FVec Ideal S200000 .f32 :=
  Host.rsqrt (maximumf (degree idx)
    (broadcastInDim S200000 ![] Gen.bcast_S_S200000 (constant (F := Ideal) S_ .f32 0x3F800000#32)))

/-- The same factor laid out as a column, as the tiled regions read it. -/
def normCol (idx : IVec S1600000 32) : FVec Ideal S200000x1 .f32 :=
  shapeCast S200000x1 (invSqrtDeg idx) Gen.shapeCasts_S200000_S200000x1

/-- The source indices as gather start indices: a negative index wrapped by the node count, laid out as a column. -/
def startIdx (src : IVec S1600000 32) : IVec S1600000x1 32 :=
  broadcastInDim S1600000x1 ![0] Gen.bcast_S1600000_S1600000x1_0
    (select (cmpi .slt src (broadcastInDim S1600000 ![] Gen.bcast_S_S1600000 (constantI S_ 32 0#32)))
      (addi src (broadcastInDim S1600000 ![] Gen.bcast_S_S1600000 (constantI S_ 32 200000#32))) src)

/-- Message passing: each edge gathers its source node's row, the rows are scatter-added at the destination nodes. -/
def aggregate (x : FVec Ideal S200000x24 .f32) (src dst : IVec S1600000 32) : FVec Ideal S200000x24 .f32 :=
  Host.scatterAdd scatter_S200000x24_S1600000x1_S1600000x24_1_0_0_1
    (broadcastInDim S200000x24 ![] Gen.bcast_S_S200000x24 (constant (F := Ideal) S_ .f32 0x00000000#32))
    (broadcastInDim S1600000x1 ![0] Gen.bcast_S1600000_S1600000x1_0 dst)
    (Host.gather gather_S200000x24_S1600000x1_S1600000x24_1_0_n_n_0_1_124 x (startIdx src))

variable (W : Valuation τ sig (Elt Ideal))

theorem stretch0_v10 : StableHlo.after hostOps0 W (Proc.devRef .tc main_v10) = normCol (W (Proc.devRef .tc main_arg1)) := by
  after_results_simp
  rfl

theorem stretch0_v14 : StableHlo.after hostOps0 W (Proc.devRef .tc main_v14) = normCol (W (Proc.devRef .tc main_arg2)) := by
  after_results_simp
  rfl

theorem stretch1_v25 : StableHlo.after hostOps1 W (Proc.devRef .tc main_v25)
    = aggregate (W (Proc.devRef .tc main_v15)) (W (Proc.devRef .tc main_arg1)) (W (Proc.devRef .tc main_arg2)) := by
  after_results_simp
  rfl

theorem stretch1_v26 : StableHlo.after hostOps1 W (Proc.devRef .tc main_v26)
    = shapeCast S1x24 (W (Proc.devRef .tc main_arg4)) Gen.shapeCasts_S24_S1x24 := by
  after_results_simp
  rfl

theorem stretch0_keep_arg0 : StableHlo.after hostOps0 W (Proc.devRef .tc main_arg0) = W (Proc.devRef .tc main_arg0) := by
  after_results_simp

theorem stretch0_keep_arg1 : StableHlo.after hostOps0 W (Proc.devRef .tc main_arg1) = W (Proc.devRef .tc main_arg1) := by
  after_results_simp

theorem stretch0_keep_arg2 : StableHlo.after hostOps0 W (Proc.devRef .tc main_arg2) = W (Proc.devRef .tc main_arg2) := by
  after_results_simp

theorem stretch0_keep_arg3 : StableHlo.after hostOps0 W (Proc.devRef .tc main_arg3) = W (Proc.devRef .tc main_arg3) := by
  after_results_simp

theorem stretch0_keep_arg4 : StableHlo.after hostOps0 W (Proc.devRef .tc main_arg4) = W (Proc.devRef .tc main_arg4) := by
  after_results_simp

theorem stretch0_keep_arg5 : StableHlo.after hostOps0 W (Proc.devRef .tc main_arg5) = W (Proc.devRef .tc main_arg5) := by
  after_results_simp

theorem stretch0_keep_arg6 : StableHlo.after hostOps0 W (Proc.devRef .tc main_arg6) = W (Proc.devRef .tc main_arg6) := by
  after_results_simp

theorem stretch0_keep_arg7 : StableHlo.after hostOps0 W (Proc.devRef .tc main_arg7) = W (Proc.devRef .tc main_arg7) := by
  after_results_simp

theorem stretch0_keep_arg8 : StableHlo.after hostOps0 W (Proc.devRef .tc main_arg8) = W (Proc.devRef .tc main_arg8) := by
  after_results_simp

theorem stretch1_keep_v10 : StableHlo.after hostOps1 W (Proc.devRef .tc main_v10) = W (Proc.devRef .tc main_v10) := by
  after_results_simp

theorem stretch1_keep_v14 : StableHlo.after hostOps1 W (Proc.devRef .tc main_v14) = W (Proc.devRef .tc main_v14) := by
  after_results_simp

theorem stretch1_keep_arg1 : StableHlo.after hostOps1 W (Proc.devRef .tc main_arg1) = W (Proc.devRef .tc main_arg1) := by
  after_results_simp

theorem stretch1_keep_arg2 : StableHlo.after hostOps1 W (Proc.devRef .tc main_arg2) = W (Proc.devRef .tc main_arg2) := by
  after_results_simp

theorem stretch1_keep_arg5 : StableHlo.after hostOps1 W (Proc.devRef .tc main_arg5) = W (Proc.devRef .tc main_arg5) := by
  after_results_simp

theorem stretch1_keep_arg6 : StableHlo.after hostOps1 W (Proc.devRef .tc main_arg6) = W (Proc.devRef .tc main_arg6) := by
  after_results_simp

theorem stretch1_keep_arg7 : StableHlo.after hostOps1 W (Proc.devRef .tc main_arg7) = W (Proc.devRef .tc main_arg7) := by
  after_results_simp

theorem stretch1_keep_arg8 : StableHlo.after hostOps1 W (Proc.devRef .tc main_arg8) = W (Proc.devRef .tc main_arg8) := by
  after_results_simp

theorem stretch3_v38 : StableHlo.after hostOps3 W (Proc.devRef .tc main_v38)
    = aggregate (W (Proc.devRef .tc main_v28)) (W (Proc.devRef .tc main_arg1)) (W (Proc.devRef .tc main_arg2)) := by
  after_results_simp
  rfl

theorem stretch3_v39 : StableHlo.after hostOps3 W (Proc.devRef .tc main_v39)
    = shapeCast S1x24 (W (Proc.devRef .tc main_arg6)) Gen.shapeCasts_S24_S1x24 := by
  after_results_simp
  rfl

theorem stretch3_keep_v14 : StableHlo.after hostOps3 W (Proc.devRef .tc main_v14) = W (Proc.devRef .tc main_v14) := by
  after_results_simp

theorem stretch3_keep_arg7 : StableHlo.after hostOps3 W (Proc.devRef .tc main_arg7) = W (Proc.devRef .tc main_arg7) := by
  after_results_simp

theorem stretch3_keep_arg8 : StableHlo.after hostOps3 W (Proc.devRef .tc main_arg8) = W (Proc.devRef .tc main_arg8) := by
  after_results_simp

theorem stretch4_v41 : StableHlo.after hostOps4 W (Proc.devRef .tc main_v41)
    = shapeCast S50000x96 (W (Proc.devRef .tc main_v40)) Gen.shapeCasts_S200000x24_S50000x96 := by
  after_results_simp
  rfl

theorem stretch4_v42 : StableHlo.after hostOps4 W (Proc.devRef .tc main_v42)
    = shapeCast S1x1 (W (Proc.devRef .tc main_arg8)) Gen.shapeCasts_S1_S1x1 := by
  after_results_simp
  rfl

theorem stretch4_keep_arg7 : StableHlo.after hostOps4 W (Proc.devRef .tc main_arg7) = W (Proc.devRef .tc main_arg7) := by
  after_results_simp

/-! ## The whole program as one function of its nine arguments -/

section Spec
variable (a0 : FVec Ideal S200000x32 .f32) (a1 a2 : IVec S1600000 32) (a3 : FVec Ideal S32x24 .f32) (a4 : FVec Ideal S24 .f32)
  (a5 : FVec Ideal S24x24 .f32) (a6 : FVec Ideal S24 .f32) (a7 : FVec Ideal S96x1 .f32) (a8 : FVec Ideal S1 .f32)

/-- The first graph convolution: scaled product, message passing, scaled and biased, clipped at zero. -/
def hidden1 : FVec Ideal S200000x24 .f32 :=
  scaleBiasRelu1 (aggregate (scaledDot0 a0 (normCol a1) a3) a1 a2) (normCol a2) (shapeCast S1x24 a4 Gen.shapeCasts_S24_S1x24)

/-- The second graph convolution, on the first one's activations. -/
def hidden2 : FVec Ideal S200000x24 .f32 :=
  scaleBiasRelu3 (aggregate (scaledDot2 (hidden1 a0 a1 a2 a3 a4) (normCol a1) a5) a1 a2) (normCol a2)
    (shapeCast S1x24 a6 Gen.shapeCasts_S24_S1x24)

/-- The result: four nodes' activations per row, through the dense head. -/
def gcnOut : FVec Ideal S50000x1 .f32 :=
  denseBias4 (shapeCast S50000x96 (hidden2 a0 a1 a2 a3 a4 a5 a6) Gen.shapeCasts_S200000x24_S50000x96) a7
    (shapeCast S1x1 a8 Gen.shapeCasts_S1_S1x1)

end Spec

/-! ## The buffers' contents at each boundary of the run, read back to the launch memory -/

section Fold
variable (m : (ℓ : Loc nD τ sig) → Buf (Elt Ideal) ℓ) (ρ : Dev nD → PrngReg) (c : Dev nD)

theorem at1_arg0 : W1 m ρ c (Proc.devRef .tc main_arg0) = (m ((c : Thread nD τ).loc main_arg0)) := stretch0_keep_arg0 (W0 m ρ c)
theorem at1_arg1 : W1 m ρ c (Proc.devRef .tc main_arg1) = (m ((c : Thread nD τ).loc main_arg1)) := stretch0_keep_arg1 (W0 m ρ c)
theorem at1_arg2 : W1 m ρ c (Proc.devRef .tc main_arg2) = (m ((c : Thread nD τ).loc main_arg2)) := stretch0_keep_arg2 (W0 m ρ c)
theorem at1_arg3 : W1 m ρ c (Proc.devRef .tc main_arg3) = (m ((c : Thread nD τ).loc main_arg3)) := stretch0_keep_arg3 (W0 m ρ c)
theorem at1_arg4 : W1 m ρ c (Proc.devRef .tc main_arg4) = (m ((c : Thread nD τ).loc main_arg4)) := stretch0_keep_arg4 (W0 m ρ c)
theorem at1_arg5 : W1 m ρ c (Proc.devRef .tc main_arg5) = (m ((c : Thread nD τ).loc main_arg5)) := stretch0_keep_arg5 (W0 m ρ c)
theorem at1_arg6 : W1 m ρ c (Proc.devRef .tc main_arg6) = (m ((c : Thread nD τ).loc main_arg6)) := stretch0_keep_arg6 (W0 m ρ c)
theorem at1_arg7 : W1 m ρ c (Proc.devRef .tc main_arg7) = (m ((c : Thread nD τ).loc main_arg7)) := stretch0_keep_arg7 (W0 m ρ c)
theorem at1_arg8 : W1 m ρ c (Proc.devRef .tc main_arg8) = (m ((c : Thread nD τ).loc main_arg8)) := stretch0_keep_arg8 (W0 m ρ c)
theorem at1_v10 : W1 m ρ c (Proc.devRef .tc main_v10) = normCol (m ((c : Thread nD τ).loc main_arg1)) := stretch0_v10 (W0 m ρ c)
theorem at1_v14 : W1 m ρ c (Proc.devRef .tc main_v14) = normCol (m ((c : Thread nD τ).loc main_arg2)) := stretch0_v14 (W0 m ρ c)

theorem at2_v15 : W2 m ρ c (Proc.devRef .tc main_v15) = scaledDot0 (m ((c : Thread nD τ).loc main_arg0)) (normCol (m ((c : Thread nD τ).loc main_arg1))) (m ((c : Thread nD τ).loc main_arg3)) := by
  refine (W2_arr m ρ c 3).trans ((final0 (V1 m ρ) c).trans ?_)
  show scaledDot0 (W1 m ρ c (Proc.devRef .tc main_arg0)) (W1 m ρ c (Proc.devRef .tc main_v10)) (W1 m ρ c (Proc.devRef .tc main_arg3)) = _
  rw [at1_arg0, at1_v10, at1_arg3]
theorem at2_v10 : W2 m ρ c (Proc.devRef .tc main_v10) = normCol (m ((c : Thread nD τ).loc main_arg1)) :=
  ((W2_arr m ρ c 1).trans (((dat0 (V1 m ρ) c).arrAt_in 1 rfl _).trans (A_eq0 (V1 m ρ) c 1))).trans (at1_v10 m ρ c)
theorem at2_v14 : W2 m ρ c (Proc.devRef .tc main_v14) = normCol (m ((c : Thread nD τ).loc main_arg2)) :=
  (W2_of_ne m ρ c main_v14 (by decide)).trans (at1_v14 m ρ c)
theorem at2_arg1 : W2 m ρ c (Proc.devRef .tc main_arg1) = (m ((c : Thread nD τ).loc main_arg1)) :=
  (W2_of_ne m ρ c main_arg1 (by decide)).trans (at1_arg1 m ρ c)
theorem at2_arg2 : W2 m ρ c (Proc.devRef .tc main_arg2) = (m ((c : Thread nD τ).loc main_arg2)) :=
  (W2_of_ne m ρ c main_arg2 (by decide)).trans (at1_arg2 m ρ c)
theorem at2_arg4 : W2 m ρ c (Proc.devRef .tc main_arg4) = (m ((c : Thread nD τ).loc main_arg4)) :=
  (W2_of_ne m ρ c main_arg4 (by decide)).trans (at1_arg4 m ρ c)
theorem at2_arg5 : W2 m ρ c (Proc.devRef .tc main_arg5) = (m ((c : Thread nD τ).loc main_arg5)) :=
  (W2_of_ne m ρ c main_arg5 (by decide)).trans (at1_arg5 m ρ c)
theorem at2_arg6 : W2 m ρ c (Proc.devRef .tc main_arg6) = (m ((c : Thread nD τ).loc main_arg6)) :=
  (W2_of_ne m ρ c main_arg6 (by decide)).trans (at1_arg6 m ρ c)
theorem at2_arg7 : W2 m ρ c (Proc.devRef .tc main_arg7) = (m ((c : Thread nD τ).loc main_arg7)) :=
  (W2_of_ne m ρ c main_arg7 (by decide)).trans (at1_arg7 m ρ c)
theorem at2_arg8 : W2 m ρ c (Proc.devRef .tc main_arg8) = (m ((c : Thread nD τ).loc main_arg8)) :=
  (W2_of_ne m ρ c main_arg8 (by decide)).trans (at1_arg8 m ρ c)

theorem at3_v25 : W3 m ρ c (Proc.devRef .tc main_v25) = aggregate (scaledDot0 (m ((c : Thread nD τ).loc main_arg0)) (normCol (m ((c : Thread nD τ).loc main_arg1))) (m ((c : Thread nD τ).loc main_arg3))) (m ((c : Thread nD τ).loc main_arg1)) (m ((c : Thread nD τ).loc main_arg2)) := by
  refine (stretch1_v25 (W2 m ρ c)).trans ?_
  rw [at2_v15, at2_arg1, at2_arg2]
theorem at3_v26 : W3 m ρ c (Proc.devRef .tc main_v26) = shapeCast S1x24 (m ((c : Thread nD τ).loc main_arg4)) Gen.shapeCasts_S24_S1x24 := by
  refine (stretch1_v26 (W2 m ρ c)).trans ?_
  rw [at2_arg4]
theorem at3_v10 : W3 m ρ c (Proc.devRef .tc main_v10) = normCol (m ((c : Thread nD τ).loc main_arg1)) := (stretch1_keep_v10 (W2 m ρ c)).trans (at2_v10 m ρ c)
theorem at3_v14 : W3 m ρ c (Proc.devRef .tc main_v14) = normCol (m ((c : Thread nD τ).loc main_arg2)) := (stretch1_keep_v14 (W2 m ρ c)).trans (at2_v14 m ρ c)
theorem at3_arg1 : W3 m ρ c (Proc.devRef .tc main_arg1) = (m ((c : Thread nD τ).loc main_arg1)) := (stretch1_keep_arg1 (W2 m ρ c)).trans (at2_arg1 m ρ c)
theorem at3_arg2 : W3 m ρ c (Proc.devRef .tc main_arg2) = (m ((c : Thread nD τ).loc main_arg2)) := (stretch1_keep_arg2 (W2 m ρ c)).trans (at2_arg2 m ρ c)
theorem at3_arg5 : W3 m ρ c (Proc.devRef .tc main_arg5) = (m ((c : Thread nD τ).loc main_arg5)) := (stretch1_keep_arg5 (W2 m ρ c)).trans (at2_arg5 m ρ c)
theorem at3_arg6 : W3 m ρ c (Proc.devRef .tc main_arg6) = (m ((c : Thread nD τ).loc main_arg6)) := (stretch1_keep_arg6 (W2 m ρ c)).trans (at2_arg6 m ρ c)
theorem at3_arg7 : W3 m ρ c (Proc.devRef .tc main_arg7) = (m ((c : Thread nD τ).loc main_arg7)) := (stretch1_keep_arg7 (W2 m ρ c)).trans (at2_arg7 m ρ c)
theorem at3_arg8 : W3 m ρ c (Proc.devRef .tc main_arg8) = (m ((c : Thread nD τ).loc main_arg8)) := (stretch1_keep_arg8 (W2 m ρ c)).trans (at2_arg8 m ρ c)

theorem at4_v27 : W4 m ρ c (Proc.devRef .tc main_v27) = hidden1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 3).trans ((final1 (V3 m ρ) c).trans ?_)
  show scaleBiasRelu1 (W3 m ρ c (Proc.devRef .tc main_v25)) (W3 m ρ c (Proc.devRef .tc main_v14)) (W3 m ρ c (Proc.devRef .tc main_v26)) = _
  rw [at3_v25, at3_v14, at3_v26]
  rfl
theorem at4_v14 : W4 m ρ c (Proc.devRef .tc main_v14) = normCol (m ((c : Thread nD τ).loc main_arg2)) :=
  ((W4_arr m ρ c 1).trans (((dat1 (V3 m ρ) c).arrAt_in 1 rfl _).trans (A_eq1 (V3 m ρ) c 1))).trans (at3_v14 m ρ c)
theorem at4_v10 : W4 m ρ c (Proc.devRef .tc main_v10) = normCol (m ((c : Thread nD τ).loc main_arg1)) :=
  (W4_of_ne m ρ c main_v10 (by decide)).trans (at3_v10 m ρ c)
theorem at4_arg1 : W4 m ρ c (Proc.devRef .tc main_arg1) = (m ((c : Thread nD τ).loc main_arg1)) :=
  (W4_of_ne m ρ c main_arg1 (by decide)).trans (at3_arg1 m ρ c)
theorem at4_arg2 : W4 m ρ c (Proc.devRef .tc main_arg2) = (m ((c : Thread nD τ).loc main_arg2)) :=
  (W4_of_ne m ρ c main_arg2 (by decide)).trans (at3_arg2 m ρ c)
theorem at4_arg5 : W4 m ρ c (Proc.devRef .tc main_arg5) = (m ((c : Thread nD τ).loc main_arg5)) :=
  (W4_of_ne m ρ c main_arg5 (by decide)).trans (at3_arg5 m ρ c)
theorem at4_arg6 : W4 m ρ c (Proc.devRef .tc main_arg6) = (m ((c : Thread nD τ).loc main_arg6)) :=
  (W4_of_ne m ρ c main_arg6 (by decide)).trans (at3_arg6 m ρ c)
theorem at4_arg7 : W4 m ρ c (Proc.devRef .tc main_arg7) = (m ((c : Thread nD τ).loc main_arg7)) :=
  (W4_of_ne m ρ c main_arg7 (by decide)).trans (at3_arg7 m ρ c)
theorem at4_arg8 : W4 m ρ c (Proc.devRef .tc main_arg8) = (m ((c : Thread nD τ).loc main_arg8)) :=
  (W4_of_ne m ρ c main_arg8 (by decide)).trans (at3_arg8 m ρ c)

theorem at5_v28 : W5 m ρ c (Proc.devRef .tc main_v28) = scaledDot2 (hidden1 (m ((c : Thread nD τ).loc main_arg0)) (m ((c : Thread nD τ).loc main_arg1)) (m ((c : Thread nD τ).loc main_arg2)) (m ((c : Thread nD τ).loc main_arg3)) (m ((c : Thread nD τ).loc main_arg4))) (normCol (m ((c : Thread nD τ).loc main_arg1))) (m ((c : Thread nD τ).loc main_arg5)) := by
  refine (W5_arr m ρ c 3).trans ((final2 (V4 m ρ) c).trans ?_)
  show scaledDot2 (W4 m ρ c (Proc.devRef .tc main_v27)) (W4 m ρ c (Proc.devRef .tc main_v10)) (W4 m ρ c (Proc.devRef .tc main_arg5)) = _
  rw [at4_v27, at4_v10, at4_arg5]
theorem at5_v14 : W5 m ρ c (Proc.devRef .tc main_v14) = normCol (m ((c : Thread nD τ).loc main_arg2)) :=
  (W5_of_ne m ρ c main_v14 (by decide)).trans (at4_v14 m ρ c)
theorem at5_arg1 : W5 m ρ c (Proc.devRef .tc main_arg1) = (m ((c : Thread nD τ).loc main_arg1)) :=
  (W5_of_ne m ρ c main_arg1 (by decide)).trans (at4_arg1 m ρ c)
theorem at5_arg2 : W5 m ρ c (Proc.devRef .tc main_arg2) = (m ((c : Thread nD τ).loc main_arg2)) :=
  (W5_of_ne m ρ c main_arg2 (by decide)).trans (at4_arg2 m ρ c)
theorem at5_arg6 : W5 m ρ c (Proc.devRef .tc main_arg6) = (m ((c : Thread nD τ).loc main_arg6)) :=
  (W5_of_ne m ρ c main_arg6 (by decide)).trans (at4_arg6 m ρ c)
theorem at5_arg7 : W5 m ρ c (Proc.devRef .tc main_arg7) = (m ((c : Thread nD τ).loc main_arg7)) :=
  (W5_of_ne m ρ c main_arg7 (by decide)).trans (at4_arg7 m ρ c)
theorem at5_arg8 : W5 m ρ c (Proc.devRef .tc main_arg8) = (m ((c : Thread nD τ).loc main_arg8)) :=
  (W5_of_ne m ρ c main_arg8 (by decide)).trans (at4_arg8 m ρ c)

theorem at6_v38 : W6 m ρ c (Proc.devRef .tc main_v38) = aggregate (scaledDot2 (hidden1 (m ((c : Thread nD τ).loc main_arg0)) (m ((c : Thread nD τ).loc main_arg1)) (m ((c : Thread nD τ).loc main_arg2)) (m ((c : Thread nD τ).loc main_arg3)) (m ((c : Thread nD τ).loc main_arg4))) (normCol (m ((c : Thread nD τ).loc main_arg1))) (m ((c : Thread nD τ).loc main_arg5))) (m ((c : Thread nD τ).loc main_arg1)) (m ((c : Thread nD τ).loc main_arg2)) := by
  refine (stretch3_v38 (W5 m ρ c)).trans ?_
  rw [at5_v28, at5_arg1, at5_arg2]
theorem at6_v39 : W6 m ρ c (Proc.devRef .tc main_v39) = shapeCast S1x24 (m ((c : Thread nD τ).loc main_arg6)) Gen.shapeCasts_S24_S1x24 := by
  refine (stretch3_v39 (W5 m ρ c)).trans ?_
  rw [at5_arg6]
theorem at6_v14 : W6 m ρ c (Proc.devRef .tc main_v14) = normCol (m ((c : Thread nD τ).loc main_arg2)) := (stretch3_keep_v14 (W5 m ρ c)).trans (at5_v14 m ρ c)
theorem at6_arg7 : W6 m ρ c (Proc.devRef .tc main_arg7) = (m ((c : Thread nD τ).loc main_arg7)) := (stretch3_keep_arg7 (W5 m ρ c)).trans (at5_arg7 m ρ c)
theorem at6_arg8 : W6 m ρ c (Proc.devRef .tc main_arg8) = (m ((c : Thread nD τ).loc main_arg8)) := (stretch3_keep_arg8 (W5 m ρ c)).trans (at5_arg8 m ρ c)

theorem at7_v40 : W7 m ρ c (Proc.devRef .tc main_v40) = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W7_arr m ρ c 3).trans ((final3 (V6 m ρ) c).trans ?_)
  show scaleBiasRelu3 (W6 m ρ c (Proc.devRef .tc main_v38)) (W6 m ρ c (Proc.devRef .tc main_v14)) (W6 m ρ c (Proc.devRef .tc main_v39)) = _
  rw [at6_v38, at6_v14, at6_v39]
  rfl
theorem at7_arg7 : W7 m ρ c (Proc.devRef .tc main_arg7) = (m ((c : Thread nD τ).loc main_arg7)) := (W7_of_ne m ρ c main_arg7 (by decide)).trans (at6_arg7 m ρ c)
theorem at7_arg8 : W7 m ρ c (Proc.devRef .tc main_arg8) = (m ((c : Thread nD τ).loc main_arg8)) := (W7_of_ne m ρ c main_arg8 (by decide)).trans (at6_arg8 m ρ c)

theorem at8_v41 : W8 m ρ c (Proc.devRef .tc main_v41) = shapeCast S50000x96 (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) Gen.shapeCasts_S200000x24_S50000x96 := by
  refine (stretch4_v41 (W7 m ρ c)).trans ?_
  rw [at7_v40]
theorem at8_v42 : W8 m ρ c (Proc.devRef .tc main_v42) = shapeCast S1x1 (m ((c : Thread nD τ).loc main_arg8)) Gen.shapeCasts_S1_S1x1 := by
  refine (stretch4_v42 (W7 m ρ c)).trans ?_
  rw [at7_arg8]
theorem at8_arg7 : W8 m ρ c (Proc.devRef .tc main_arg7) = (m ((c : Thread nD τ).loc main_arg7)) := (stretch4_keep_arg7 (W7 m ρ c)).trans (at7_arg7 m ρ c)

/-- The result buffer after the last region: the whole program's function of the launch contents of its arguments. -/
theorem result_eq : W9 m ρ c (Proc.devRef .tc main_v43)
    = gcnOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W9_arr m ρ c 3).trans ((final4 (V8 m ρ) c).trans ?_)
  show denseBias4 (W8 m ρ c (Proc.devRef .tc main_v41)) (W8 m ρ c (Proc.devRef .tc main_arg7)) (W8 m ρ c (Proc.devRef .tc main_v42)) = _
  rw [at8_v41, at8_arg7, at8_v42]
  rfl

end Fold

end Cert.KernelIdeal.Layers

end
-- ==== Proof.LibCastBroadcast.lean ====
/-
  A vector laid out as a column or as a row: the reshape and the broadcast are one function.

  A vector of N entries becomes an N×1 column either by a shape cast (the entries keep their row-major order) or by a
  broadcast that puts the vector's axis on axis 0; it becomes a 1×n row either by a shape cast or by a broadcast that puts
  its axis on axis 1. In each pair the two arrays have the same entries: the column's entry (r, 0) is the vector's entry r,
  the row's entry (0, q) is the vector's entry q. Generic in the extent and the element type (for the column the extent
  must not be the unit extent, so that the broadcast reads the row coordinate).
-/
import Idealize.ShloMosaic.Lib.Pipeline.Value
import Idealize.ShloMosaic.Lib.ValueIdx

namespace Cert.LibCastBroadcast

open Idealize.ShloMosaic Idealize.ShloMosaic.ValueIdx

variable {α : Type}

/-- [N] → [N, 1]: the cast is the broadcast along axis 0. -/
theorem colCast_eq {N : Nat} (hN : N ≠ 1) (v : (⟨1, ![N]⟩ : Shape).Idx → α)
    (h : (⟨1, ![N]⟩ : Shape).ShapeCasts ⟨2, ![N, 1]⟩) (h' : (⟨1, ![N]⟩ : Shape).BroadcastsInDim ⟨2, ![N, 1]⟩ ![0]) :
    shapeCast ⟨2, ![N, 1]⟩ v h = broadcastInDim ⟨2, ![N, 1]⟩ ![0] h' v := by
  funext i
  obtain ⟨r, z, rfl⟩ : ∃ (r : Fin N) (z : Fin 1), i = ix2 r z := ⟨i 0, i 1, eq_ix2 i⟩
  rw [broadcastInDim_apply ![0] h' v (ix2 r z) (ix1 r) (fun a => match a with
    | ⟨0, _⟩ => by show r.val = if N = 1 then 0 else r.val; rw [if_neg hN])]
  refine shapeCast_apply v h (ix2 r z) (ix1 r) ?_
  rw [Shape.rowMajor_val_one, Shape.rowMajor_val_two]
  show r.val = r.val * 1 + z.val
  have := z.isLt; omega

/-- [n] → [1, n]: the cast is the broadcast along axis 1. -/
theorem rowCast_eq {n : Nat} (v : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ v h = broadcastInDim ⟨2, ![1, n]⟩ ![1] h' v := by
  funext i
  obtain ⟨z, q, rfl⟩ : ∃ (z : Fin 1) (q : Fin n), i = ix2 z q := ⟨i 0, i 1, eq_ix2 i⟩
  obtain rfl : z = 0 := Subsingleton.elim _ _
  rw [shapeCast_apply v h (ix2 (0 : Fin 1) q) (ix1 q) (by
      rw [Shape.rowMajor_val_one, Shape.rowMajor_val_two]; show q.val = 0 * n + q.val; omega),
    broadcastInDim_apply ![1] h' v (ix2 (0 : Fin 1) q) (ix1 q) (fun a => match a with
      | ⟨0, _⟩ => by
        show q.val = if n = 1 then 0 else q.val
        split
        · have := q.isLt; omega
        · rfl)]

end Cert.LibCastBroadcast
-- ==== Proof.RefBridge.lean ====
/-
  The reference's result is the kernel program's function of the arguments.

  The reference computes the same two graph convolutions and dense head with whole-array host operations: the same degree
  counts, inverse square roots, gather and scatter-add, products, biases and clipping. The kernel program's function
  differs from the reference's term in three layout operations only — the degree factor made a column, each bias made a
  row: a reshape where the reference broadcasts — and those are equal functions; what is left is one term.
-/
import proofs.«131091_j25555055411820_2_alg».proof.Proof.Fold
import proofs.«131091_j25555055411820_2_alg».proof.Proof.LibCastBroadcast
import proofs.«131091_j25555055411820_2_alg».proof.Proof.Gen.ReferenceIdeal.Run

set_option maxRecDepth 16384

noncomputable section

open Idealize.ShloMosaic Idealize.ShloMosaic.TcCoe Idealize.SL.Sem

namespace Cert.Bridge

open Cert.KernelIdeal.Layers

/-- The reference run's result term is the kernel program's composite function of the same arguments. -/
theorem reference_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v72 (F := Ideal) m' c
      = gcnOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) := by
  unfold gcnOut hidden2 hidden1 normCol
  simp only [Cert.LibCastBroadcast.colCast_eq (N := 200000) (by decide) _ _ Cert.ReferenceIdeal.Gen.bcast_S200000_S200000x1_0,
    Cert.LibCastBroadcast.rowCast_eq (n := 24) _ _ Cert.ReferenceIdeal.Gen.bcast_S24_S1x24_1,
    Cert.LibCastBroadcast.rowCast_eq (n := 1) _ _ Cert.ReferenceIdeal.Gen.bcast_S1_S1x1_1]
  rfl

end Cert.Bridge

end
-- ==== Proof.lean ====
/-
  A two-layer graph convolutional network with a dense head: the tiled kernel program against its whole-array reference,
  equal on the extended reals.

  Both programs compute, from node features X, an edge list (src, dst), weights and biases,
      h₁ = relu(D_in^{-1/2} · A · ((X ⊙ D_out^{-1/2}) · W₁) + b₁),   h₂ = the same of h₁ with W₂, b₂,
      out = reshape(h₂, 4 nodes per row) · W_d + b_d,
  where the degrees count the edges at each node (clipped below at 1), A·Y gathers Y's rows at the edges' sources and
  scatter-adds them at their destinations. The kernel program runs the three dense parts — the scaled product, the
  scale-bias-clip epilogue, the head — as row-tiled regions with narrowed matrix-unit operands, and leaves the degree
  counts and the message passing to the same host operations the reference uses. On the extended reals a change of float
  format is the identity and a product accumulated into zero is the plain product, so each region leaves in its result
  array the reference's whole-array formula of the arrays it read (rows are independent of one another, and the tiles
  cover all rows); the host stretches in between are the reference's own operations. So the kernel program's result is the
  reference's term, up to how a vector is laid out as a column or a row. No law that needs finite values is used: the
  precondition is not opened.

  The three frames are the generated ones (the reference's is its generated run with the result dropped); the ideal pass
  rewrote nothing, so the idealization claim is trivial.
-/
import proofs.«131091_j25555055411820_2_alg».proof.Defs
import proofs.«131091_j25555055411820_2_alg».proof.Proof.Gen.Kernel
import proofs.«131091_j25555055411820_2_alg».proof.Proof.Gen.Kernel.Frame
import proofs.«131091_j25555055411820_2_alg».proof.Proof.Gen.KernelIdeal
import proofs.«131091_j25555055411820_2_alg».proof.Proof.Gen.KernelIdeal.Frame
import proofs.«131091_j25555055411820_2_alg».proof.Proof.Gen.ReferenceIdeal
import proofs.«131091_j25555055411820_2_alg».proof.Proof.Gen.ReferenceIdeal.Run
import proofs.«131091_j25555055411820_2_alg».proof.Proof.Gen.Pre_finite_inputs
import proofs.«131091_j25555055411820_2_alg».proof.Proof.KernelRun
import proofs.«131091_j25555055411820_2_alg».proof.Proof.Fold
import proofs.«131091_j25555055411820_2_alg».proof.Proof.RefBridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network's function of the (agreeing) arguments: the kernel program's by the
    regions' closed forms followed through the run, the reference's by its run's term, which is that function. -/
theorem algebraic : Cert.algebraic_KernelIdeal_ReferenceIdeal := by
  intro m ρ m' ρ' _ hagree
  refine ⟨fun c => Cert.KernelIdeal.Layers.gcnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Layers.result_eq m ρ c), (h c).2⟩)
      (Cert.KernelIdeal.Layers.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.Bridge.reference_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
